-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S200001x128 : Shape := ⟨2, ![200001, 128]⟩
abbrev S16384 : Shape := ⟨1, ![16384]⟩
abbrev S_ : Shape := ⟨0, ![]⟩

class Facts : Prop where
  bcast_S_S200001x128 : S_.BroadcastsInDim S200001x128 (![] : Fin 0 → Fin S200001x128.rank)
  reducesTo_S200001x128_S_d0_1 : S200001x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S200001x128 .f32) (main_arg1 : IVec S16384 32) : IVec S_ 1 :=
  let main_v0 : FVec F S200001x128 .f32 := Host.absf main_arg0
  let main_cst : FVec F S_ .f32 := constant S_ .f32 0x7F800000#32
  let main_v1 : FVec F S200001x128 .f32 := broadcastInDim S200001x128 ![] bcast_S_S200001x128 main_cst
  let main_v2 : IVec S200001x128 1 := cmpf .olt main_v0 main_v1
  let main_c : IVec S_ 1 := constantI S_ 1 1#1
  let main_v3 : IVec S_ 1 := (fun x v => Host.reduce IntOp.andi x v reducesTo_S200001x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 99999#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S200001x128 : Shape := ⟨2, ![200001, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S128x128 : Shape := ⟨2, ![128, 128]⟩
abbrev S128 : Shape := ⟨1, ![128]⟩
abbrev S100001x128 : Shape := ⟨2, ![100001, 128]⟩

abbrev nBuf : Table → Nat
  | .hbm => 3
  | .local .scVector .vmem => 2
  | _ => 0

abbrev bufTy : (tb : Table) → Fin (nBuf tb) → BufTy
  | .hbm, ⟨0, _⟩ => ⟨S200001x128, .f32⟩
  | .hbm, ⟨1, _⟩ => ⟨S16384, .i32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S200001x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c0_i32_30
  let c0_i32_33 : BitVec 32 := 0#32
  ![v23.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S512x128_S128x128_0_0 : ∀ a, (![0, 0] : Fin 2 → Nat) a + S128x128.size a ≤ S512x128.size a
  inb_S512_S128_0 : ∀ a, (![0] : Fin 1 → Nat) a + S128.size a ≤ S512.size a
  inb_S200001x128_S100001x128_100000_0 : ∀ a, (![100000, 0] : Fin 2 → Nat) a + S100001x128.size a ≤ S200001x128.size a
  inb_S100001x128_S100001x128_0_0 : ∀ a, (![0, 0] : Fin 2 → Nat) a + S100001x128.size a ≤ S100001x128.size a
  gathers_S100001x128_S128x128 : S100001x128.Gathers 0 S128x128
  inb_S512x128_S128x128_128_0 : ∀ a, (![128, 0] : Fin 2 → Nat) a + S128x128.size a ≤ S512x128.size a
  inb_S512_S128_128 : ∀ a, (![128] : Fin 1 → Nat) a + S128.size a ≤ S512.size a
  inb_S512x128_S128x128_256_0 : ∀ a, (![256, 0] : Fin 2 → Nat) a + S128x128.size a ≤ S512x128.size a
  inb_S512_S128_256 : ∀ a, (![256] : Fin 1 → Nat) a + S128.size a ≤ S512.size a
  inb_S512x128_S128x128_384_0 : ∀ a, (![384, 0] : Fin 2 → Nat) a + S128x128.size a ≤ S512x128.size a
  inb_S512_S128_384 : ∀ a, (![384] : Fin 1 → Nat) a + S128.size a ≤ S512.size a
  hcc0_scratch2 : 0 + S_.numel ≤ 6
  hcc0_scratch3 : 1 + S_.numel ≤ 6
  hcc0_scratch4 : 2 + S_.numel ≤ 6
  hcc0_scratch5 : 3 + S_.numel ≤ 6
  hcc0_scratch6 : 4 + S_.numel ≤ 6
  hcc0_scoped0 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 4), ∀ a, (k0_off2 i (BitVec.ofNat 32 (128 * r.val))) a + S128x128.size a ≤ S16384x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scoped0 : DmaSems sig S_ := SemArray.consecutive 5 S_ hcc0_scoped0

class Facts : Prop extends Facts₀ where

variable [Facts]
-- ==== ReferenceIdeal.lean ====
abbrev S200001x128 : Shape := ⟨2, ![200001, 128]⟩
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S200001x128, .f32⟩
  | .hbm, ⟨1, _⟩ => ⟨S16384, .i32⟩
  | .hbm, ⟨2, _⟩ => ⟨S100000x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | _, _ => ⟨S200001x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  slices_S200001x128_S100000x128_100000_0 : S200001x128.Slices ![100000, 0] S100000x128
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.KBC.lean ====
/-
  The embedding lookup on the SparseCore, part one: the program as the launch theorem sees it, the ghost
  state, the pieces of the arrays each vector subcore works on, and what the handshakes carry.

  Thirty-two vector subcores (two SparseCores of sixteen) each own 512 consecutive entries of the index
  vector: subcore `s` of SparseCore `c` is worker `2 s + c`, and its entries start at `512 (2 s + c)`.
  A worker copies its entries into its own index scratch, gathers the table rows `100000 + idx` into its
  row scratch in four chunks of 128 rows, and copies each chunk out to the same 128 rows of the result.
  The table is only read: every worker holds a share of it, cut further into four pieces, one per gather.
  The result after the run is `out[r, :] = table[100000 + idx[r], :]` (`Gout`).
-/
import proofs.«219932_g11020886081826_week1_w3_745_20_alg».proof.Defs
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import Idealize.ShloMosaic.Lib.ValueIdx
import proofs.«219932_g11020886081826_week1_w3_745_20_alg».proof.Proof.Gen.Kernel
import proofs.«219932_g11020886081826_week1_w3_745_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the index vector and the result, as locations of device `d`. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "xV" => (Memref.whole Cert.Kernel.main_arg0_scv : Memref Cert.Kernel.sig Kind.scVector Space.hbm Cert.Kernel.S200001x128 EltTy.f32)
local notation "iV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

/-! ## A worker's pieces, spelt as the kernel slices them -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The worker's 512 entries of the index vector. -/
abbrev iSl (L : grid0.Coords) : Memref sig .scVector .hbm S512 .i32 :=
  (iV).slice (Rect.unit (s := S16384) (k0_off1 L) S512.size (k0_off1_inb L)) (fun _ => rfl)
abbrev iSet (L : grid0.Coords) : Finset S16384.Idx := (iSl L).view.set

/-- The worker's four chunks of 128 rows of the result. -/
abbrev oSl0 (L : grid0.Coords) : Memref sig .scVector .hbm S128x128 .f32 :=
  (oV).slice (Rect.unit (s := S16384x128) (k0_off2 L 0#32) S128x128.size (k0_off2_inb L 0)) (fun _ => rfl)
abbrev oSl1 (L : grid0.Coords) : Memref sig .scVector .hbm S128x128 .f32 :=
  (oV).slice (Rect.unit (s := S16384x128) (k0_off2 L 128#32) S128x128.size (k0_off2_inb L 1)) (fun _ => rfl)
abbrev oSl2 (L : grid0.Coords) : Memref sig .scVector .hbm S128x128 .f32 :=
  (oV).slice (Rect.unit (s := S16384x128) (k0_off2 L 256#32) S128x128.size (k0_off2_inb L 2)) (fun _ => rfl)
abbrev oSl3 (L : grid0.Coords) : Memref sig .scVector .hbm S128x128 .f32 :=
  (oV).slice (Rect.unit (s := S16384x128) (k0_off2 L 384#32) S128x128.size (k0_off2_inb L 3)) (fun _ => rfl)
def oSet (L : grid0.Coords) : Fin 4 → Finset S16384x128.Idx
  | 0 => (oSl0 L).view.set | 1 => (oSl1 L).view.set | 2 => (oSl2 L).view.set | 3 => (oSl3 L).view.set

/-- The rows of the table the gathers read from: `100000 …` to the end, as the kernel slices them (twice). -/
abbrev xUser : Memref sig .scVector .hbm S100001x128 .f32 :=
  ((xV).slice (Rect.unit (s := S200001x128) ![100000, 0] S100001x128.size inb_S200001x128_S100001x128_100000_0) (fun _ => rfl)).slice
    (Rect.unit (s := S100001x128) ![0, 0] S100001x128.size inb_S100001x128_S100001x128_0_0) (fun _ => rfl)

/-- The four chunks of the row scratch and of the index scratch. -/
abbrev rSl0 : Memref sig .scVector .vmem S128x128 .f32 := (rV).slice (Rect.unit (s := S512x128) ![0, 0] S128x128.size inb_S512x128_S128x128_0_0) (fun _ => rfl)
abbrev rSl1 : Memref sig .scVector .vmem S128x128 .f32 := (rV).slice (Rect.unit (s := S512x128) ![128, 0] S128x128.size inb_S512x128_S128x128_128_0) (fun _ => rfl)
abbrev rSl2 : Memref sig .scVector .vmem S128x128 .f32 := (rV).slice (Rect.unit (s := S512x128) ![256, 0] S128x128.size inb_S512x128_S128x128_256_0) (fun _ => rfl)
abbrev rSl3 : Memref sig .scVector .vmem S128x128 .f32 := (rV).slice (Rect.unit (s := S512x128) ![384, 0] S128x128.size inb_S512x128_S128x128_384_0) (fun _ => rfl)
abbrev sSl0 : Memref sig .scVector .vmem S128 .i32 := (sV).slice (Rect.unit (s := S512) ![0] S128.size inb_S512_S128_0) (fun _ => rfl)
abbrev sSl1 : Memref sig .scVector .vmem S128 .i32 := (sV).slice (Rect.unit (s := S512) ![128] S128.size inb_S512_S128_128) (fun _ => rfl)
abbrev sSl2 : Memref sig .scVector .vmem S128 .i32 := (sV).slice (Rect.unit (s := S512) ![256] S128.size inb_S512_S128_256) (fun _ => rfl)
abbrev sSl3 : Memref sig .scVector .vmem S128 .i32 := (sV).slice (Rect.unit (s := S512) ![384] S128.size inb_S512_S128_384) (fun _ => rfl)

/-! ## Shares of the table -/

/-- SparseCore `c`'s share, subcore `s`'s piece of it, and that piece cut once more for the four gathers. -/
abbrev xqC (c : Fin 2) : PosShare TreeShare := pieceOf fullShare 2 (by decide) c
abbrev xqT (c : Fin 2) (s : Fin 16) : PosShare TreeShare := pieceOf (xqC c) 16 (by decide) s
abbrev xqG (c : Fin 2) (s : Fin 16) (r : Fin 4) : PosShare TreeShare := pieceOf (xqT c s) 4 (by decide) r

variable [FloatOps F]

/-! ## The result -/

/-- Row `r` of the result is row `100000 + idx[r]` of the table (the row number cut off at the table's last row, so
    that the function is total; under the precondition nothing is cut off). -/
def Gout (d : Dev nD) : Buf (Elt F) (oLoc d) := fun i =>
  m (xLoc d) (ValueIdx.ix2 (n0 := 200001) (n1 := 128) (⟨min (100000 + (m (iLoc d) (ValueIdx.ix1 (n := 16384) (i 0))).toNat) 200000, by omega⟩ : Fin 200001) (i 1))

/-! ## What the handshakes carry -/

abbrev xPts (d : Dev nD) (q : PosShare TreeShare) : sProp 𝕄 := xLoc d ↦{q} m (xLoc d)
abbrev iPtsL (d : Dev nD) (L : grid0.Coords) : sProp 𝕄 := iLoc d ↦[iSet L]{fullShare} m (iLoc d)
abbrev oPtsL (d : Dev nD) (L : grid0.Coords) (f : Buf (Elt F) (oLoc d)) : sProp 𝕄 :=
  iprop((oLoc d ↦[oSet L 0]{fullShare} f) ∗ (oLoc d ↦[oSet L 1]{fullShare} f) ∗ (oLoc d ↦[oSet L 2]{fullShare} f) ∗ (oLoc d ↦[oSet L 3]{fullShare} f))

/-- The grid point of task `i` of SparseCore `c` of the call. -/
abbrev LK (c : Fin 2) (i : Fin 16) : grid0.Coords := coordsV ⟨c.val, c.isLt⟩ ⟨i.val, i.isLt⟩

/-- What a task takes and brings back: its entries of the index vector, its piece of the table's share, its rows of
    the result — at the launch contents before, at `Gout` after. -/
abbrev goT (d : Dev nD) (c : Fin 2) (i : Fin 16) (f : Buf (Elt F) (oLoc d)) : sProp 𝕄 :=
  iprop(iPtsL m d (LK c i) ∗ xPts m d (xqT c i) ∗ oPtsL d (LK c i) f)

def P : (K (F := F)).Pay (nD := nD) (Val := Elt F) (Name := ℕ) (U := UU) where
  st := fun q d c => match q with | 0 => iprop((bigSep Finset.univ fun i : Fin 16 => iPtsL m d (LK (Fin.cast nCore_zero c) i)) ∗ xPts m d (xqC (Fin.cast nCore_zero c))
    ∗ (bigSep Finset.univ fun i : Fin 16 => oPtsL d (LK (Fin.cast nCore_zero c) i) (m (oLoc d))))
  dn := fun q d c => match q with | 0 => iprop((bigSep Finset.univ fun i : Fin 16 => iPtsL m d (LK (Fin.cast nCore_zero c) i)) ∗ xPts m d (xqC (Fin.cast nCore_zero c))
    ∗ (bigSep Finset.univ fun i : Fin 16 => oPtsL d (LK (Fin.cast nCore_zero c) i) (Gout m d)))
  go := fun q d c i => match q with | 0 => goT m d (Fin.cast nCore_zero c) (Fin.cast nSub_zero i) (m (oLoc d))
  td := fun q d c i => match q with | 0 => goT m d (Fin.cast nCore_zero c) (Fin.cast nSub_zero i) (Gout m d)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## Small facts about big separating conjunctions -/

omit m ρ in
theorem bigSep_univ_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- What the proof asks of the launch memory: every index names one of the first 100000 user rows. -/
def PreOK : Prop := ∀ (d : Dev nD) (j : S16384.Idx), (m (iLoc d) j).toNat < 100000

end Cert.Proof.KB

end
-- ==== Proof.KBS.lean ====
/-
  The embedding lookup on the SparseCore: which elements each piece holds, and that the pieces tile their arrays.

  Every piece is a block of consecutive rows of a whole array: an index lies in it exactly when its row number lies in
  the block's range. A row number determines its block (the quotient by the block height, refined by the worker's
  number `2 s + c`), so blocks of different numbers are disjoint and every index lies in its own block: the four
  chunks tile each scratch, the thirty-two workers' entries tile the index vector, and the hundred and twenty-eight
  chunks tile the result.
-/
import proofs.«219932_g11020886081826_week1_w3_745_20_alg».proof.Proof.KBC

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S200001x128 EltTy.f32)
local notation "iV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

/-! ## Membership in a block of rows -/

/-- An index lies in a unit-stride block of a whole array exactly when each coordinate lies in the block's range. -/
theorem mem_slice_whole {κ : Kind} (b : Ref sig κ) (off size : Fin b.ty.shape.rank → ℕ)
    (inb : ∀ a, off a + size a ≤ b.ty.shape.size a) (hst) (i : b.ty.shape.Idx) :
    i ∈ ((Memref.whole b).slice (Rect.unit (s := b.ty.shape) off size inb) hst).view.set ↔ ∀ a, off a ≤ i a ∧ (i a : ℕ) < off a + size a := by
  show i ∈ ((View.whole b).slice (Rect.unit (s := b.ty.shape) off size inb)).set ↔ _
  rw [View.set_slice_whole]
  exact Rect.mem_set_unit

/-- A family of sets, one per key, each index in the set of its own key: the sets cover everything. -/
theorem biUnion_univ_of_key {ι T : Type} [Fintype ι] [DecidableEq ι] [Fintype T] [DecidableEq T] (Kf : T → Finset ι) (key : ι → T)
    (h : ∀ i, i ∈ Kf (key i)) : Finset.univ.biUnion Kf = Finset.univ :=
  Finset.eq_univ_iff_forall.mpr fun i => Finset.mem_biUnion.mpr ⟨key i, Finset.mem_univ _, h i⟩

/-- A family of sets each of whose members has the set's key: the sets are pairwise disjoint. -/
theorem disjoint_of_key {ι T : Type} [DecidableEq ι] (Kf : T → Finset ι) (key : ι → T) (s : Finset T)
    (h : ∀ t i, i ∈ Kf t → key i = t) : ∀ t ∈ s, ∀ t' ∈ s, t ≠ t' → Disjoint (Kf t) (Kf t') :=
  fun t _ t' _ hne => Finset.disjoint_left.mpr fun i hi hi' => hne ((h t i hi).symm.trans (h t' i hi'))

/-! ## The four chunks of the index scratch -/

def sChunk : Fin 4 → Finset S512.Idx
  | 0 => (sSl0).view.set | 1 => (sSl1).view.set | 2 => (sSl2).view.set | 3 => (sSl3).view.set

theorem mem_sChunk (r : Fin 4) (i : S512.Idx) : i ∈ sChunk r ↔ 128 * r.val ≤ (i 0).val ∧ (i 0).val < 128 * r.val + 128 := by
  have key : ∀ (o : ℕ) (inb : ∀ a, (![o] : Fin 1 → ℕ) a + S128.size a ≤ S512.size a) (hst),
      i ∈ ((sV).slice (Rect.unit (s := S512) ![o] S128.size inb) hst).view.set ↔ o ≤ (i 0).val ∧ (i 0).val < o + 128 := fun o inb hst =>
    (mem_slice_whole cc0_scratch0 ![o] S128.size inb hst i).trans
      ⟨fun h => h 0, fun h a => match a with | ⟨0, _⟩ => h⟩
  match r with
  | 0 => exact key 0 _ _
  | 1 => exact key 128 _ _
  | 2 => exact key 256 _ _
  | 3 => exact key 384 _ _

def sKey (i : S512.Idx) : Fin 4 := ⟨(i 0).val / 128, by have h : (i 0).val < 512 := (i 0).isLt; omega⟩

theorem sChunk_cover : Finset.univ.biUnion sChunk = Finset.univ :=
  biUnion_univ_of_key sChunk sKey fun i => (mem_sChunk _ i).mpr (by
    have h : (i 0).val < 512 := (i 0).isLt
    show 128 * ((i 0).val / 128) ≤ (i 0).val ∧ (i 0).val < 128 * ((i 0).val / 128) + 128
    omega)
theorem sChunk_disj : ∀ t ∈ (Finset.univ : Finset (Fin 4)), ∀ t' ∈ (Finset.univ : Finset (Fin 4)), t ≠ t' → Disjoint (sChunk t) (sChunk t') :=
  disjoint_of_key sChunk sKey _ fun t i hi => by
    have := (mem_sChunk t i).mp hi
    refine Fin.ext ?_
    show (i 0).val / 128 = t.val
    omega

/-! ## The four chunks of the row scratch -/

def rChunk : Fin 4 → Finset S512x128.Idx
  | 0 => (rSl0).view.set | 1 => (rSl1).view.set | 2 => (rSl2).view.set | 3 => (rSl3).view.set

theorem mem_rChunk (r : Fin 4) (i : S512x128.Idx) : i ∈ rChunk r ↔ 128 * r.val ≤ (i 0).val ∧ (i 0).val < 128 * r.val + 128 := by
  have key : ∀ (o : ℕ) (inb : ∀ a, (![o, 0] : Fin 2 → ℕ) a + S128x128.size a ≤ S512x128.size a) (hst),
      i ∈ ((rV).slice (Rect.unit (s := S512x128) ![o, 0] S128x128.size inb) hst).view.set ↔ o ≤ (i 0).val ∧ (i 0).val < o + 128 := fun o inb hst =>
    (mem_slice_whole cc0_scratch1 ![o, 0] S128x128.size inb hst i).trans
      ⟨fun h => h 0, fun h a => match a with
        | ⟨0, _⟩ => h
        | ⟨1, _⟩ => show (0 : ℕ) ≤ (i 1).val ∧ (i 1).val < 0 + 128 from ⟨Nat.zero_le _, by have h1 : (i 1).val < 128 := (i 1).isLt; omega⟩⟩
  match r with
  | 0 => exact key 0 _ _
  | 1 => exact key 128 _ _
  | 2 => exact key 256 _ _
  | 3 => exact key 384 _ _

def rKey (i : S512x128.Idx) : Fin 4 := ⟨(i 0).val / 128, by have h : (i 0).val < 512 := (i 0).isLt; omega⟩

theorem rChunk_cover : Finset.univ.biUnion rChunk = Finset.univ :=
  biUnion_univ_of_key rChunk rKey fun i => (mem_rChunk _ i).mpr (by
    have h : (i 0).val < 512 := (i 0).isLt
    show 128 * ((i 0).val / 128) ≤ (i 0).val ∧ (i 0).val < 128 * ((i 0).val / 128) + 128
    omega)
theorem rChunk_disj : ∀ t ∈ (Finset.univ : Finset (Fin 4)), ∀ t' ∈ (Finset.univ : Finset (Fin 4)), t ≠ t' → Disjoint (rChunk t) (rChunk t') :=
  disjoint_of_key rChunk rKey _ fun t i hi => by
    have := (mem_rChunk t i).mp hi
    refine Fin.ext ?_
    show (i 0).val / 128 = t.val
    omega

/-! ## The workers' entries of the index vector -/

theorem mem_iSet (L : grid0.Coords) (i : S16384.Idx) :
    i ∈ iSet L ↔ 1024 * (L 1).val + 512 * (L 0).val ≤ (i 0).val ∧ (i 0).val < 1024 * (L 1).val + 512 * (L 0).val + 512 := by
  refine (mem_slice_whole main_arg1_scv (k0_off1 L) S512.size (k0_off1_inb L) _ i).trans ?_
  rw [k0_off1_eq]
  exact ⟨fun h => h 0, fun h a => match a with | ⟨0, _⟩ => h⟩

/-- The chunk of the result that starts at row `1024 s + 512 c + o`. -/
theorem mem_oSl (L : grid0.Coords) (w : BitVec 32) (o : ℕ) (inb) (hst) (e : k0_off2 L w = ![1024 * (L 1).val + 512 * (L 0).val + o, 0]) (i : S16384x128.Idx) :
    i ∈ ((oV).slice (Rect.unit (s := S16384x128) (k0_off2 L w) S128x128.size inb) hst).view.set
      ↔ 1024 * (L 1).val + 512 * (L 0).val + o ≤ (i 0).val ∧ (i 0).val < 1024 * (L 1).val + 512 * (L 0).val + o + 128 := by
  refine (mem_slice_whole main_v0_scv (k0_off2 L w) S128x128.size inb hst i).trans ?_
  rw [e]
  exact ⟨fun h => h 0, fun h a => match a with
    | ⟨0, _⟩ => h
    | ⟨1, _⟩ => show (0 : ℕ) ≤ (i 1).val ∧ (i 1).val < 0 + 128 from ⟨Nat.zero_le _, by have h1 : (i 1).val < 128 := (i 1).isLt; omega⟩⟩

theorem mem_oSet (L : grid0.Coords) (r : Fin 4) (i : S16384x128.Idx) :
    i ∈ oSet L r ↔ 1024 * (L 1).val + 512 * (L 0).val + 128 * r.val ≤ (i 0).val ∧ (i 0).val < 1024 * (L 1).val + 512 * (L 0).val + 128 * r.val + 128 := by
  match r with
  | 0 => exact mem_oSl L 0#32 (128 * 0) _ _ (k0_off2_eq L 0) i
  | 1 => exact mem_oSl L 128#32 (128 * 1) _ _ (k0_off2_eq L 1) i
  | 2 => exact mem_oSl L 256#32 (128 * 2) _ _ (k0_off2_eq L 2) i
  | 3 => exact mem_oSl L 384#32 (128 * 3) _ _ (k0_off2_eq L 3) i

omit F in
theorem LK_val (c : Fin 2) (s : Fin 16) : ((LK c s) 0).val = c.val ∧ ((LK c s) 1).val = s.val := ⟨rfl, rfl⟩

def iKey (i : S16384.Idx) : Fin 2 × Fin 16 :=
  (⟨(i 0).val % 1024 / 512, by omega⟩, ⟨(i 0).val / 1024, by have h : (i 0).val < 16384 := (i 0).isLt; omega⟩)

theorem iSet_cover : Finset.univ.biUnion (fun t : Fin 2 × Fin 16 => iSet (LK t.1 t.2)) = Finset.univ :=
  biUnion_univ_of_key _ iKey fun i => (mem_iSet _ i).mpr (by
    have h : (i 0).val < 16384 := (i 0).isLt
    show 1024 * ((i 0).val / 1024) + 512 * ((i 0).val % 1024 / 512) ≤ (i 0).val
      ∧ (i 0).val < 1024 * ((i 0).val / 1024) + 512 * ((i 0).val % 1024 / 512) + 512
    omega)
theorem iSet_disj : ∀ t ∈ (Finset.univ : Finset (Fin 2 × Fin 16)), ∀ t' ∈ (Finset.univ : Finset (Fin 2 × Fin 16)), t ≠ t' →
    Disjoint (iSet (LK t.1 t.2)) (iSet (LK t'.1 t'.2)) :=
  disjoint_of_key (fun t : Fin 2 × Fin 16 => iSet (LK t.1 t.2)) iKey _ fun t i hi => by
    have h := (mem_iSet _ i).mp hi
    have hc : ((LK t.1 t.2) 0).val = t.1.val := rfl
    have hs : ((LK t.1 t.2) 1).val = t.2.val := rfl
    rw [hc, hs] at h
    have h1 := t.1.isLt
    refine Prod.ext (Fin.ext ?_) (Fin.ext ?_)
    · show (i 0).val % 1024 / 512 = t.1.val
      omega
    · show (i 0).val / 1024 = t.2.val
      omega

/-! ## The workers' chunks of the result -/

def oKey (i : S16384x128.Idx) : (Fin 2 × Fin 16) × Fin 4 :=
  ((⟨(i 0).val % 1024 / 512, by omega⟩, ⟨(i 0).val / 1024, by have h : (i 0).val < 16384 := (i 0).isLt; omega⟩), ⟨(i 0).val % 512 / 128, by omega⟩)

theorem oSet_cover : Finset.univ.biUnion (fun t : (Fin 2 × Fin 16) × Fin 4 => oSet (LK t.1.1 t.1.2) t.2) = Finset.univ :=
  biUnion_univ_of_key _ oKey fun i => (mem_oSet _ _ i).mpr (by
    have h : (i 0).val < 16384 := (i 0).isLt
    show 1024 * ((i 0).val / 1024) + 512 * ((i 0).val % 1024 / 512) + 128 * ((i 0).val % 512 / 128) ≤ (i 0).val
      ∧ (i 0).val < 1024 * ((i 0).val / 1024) + 512 * ((i 0).val % 1024 / 512) + 128 * ((i 0).val % 512 / 128) + 128
    omega)
theorem oSet_disj : ∀ t ∈ (Finset.univ : Finset ((Fin 2 × Fin 16) × Fin 4)), ∀ t' ∈ (Finset.univ : Finset ((Fin 2 × Fin 16) × Fin 4)), t ≠ t' →
    Disjoint (oSet (LK t.1.1 t.1.2) t.2) (oSet (LK t'.1.1 t'.1.2) t'.2) :=
  disjoint_of_key (fun t : (Fin 2 × Fin 16) × Fin 4 => oSet (LK t.1.1 t.1.2) t.2) oKey _ fun t i hi => by
    have h := (mem_oSet _ _ i).mp hi
    have hc : ((LK t.1.1 t.1.2) 0).val = t.1.1.val := rfl
    have hs : ((LK t.1.1 t.1.2) 1).val = t.1.2.val := rfl
    rw [hc, hs] at h
    have h1 := t.1.1.isLt
    have h2 := t.2.isLt
    refine Prod.ext (Prod.ext (Fin.ext ?_) (Fin.ext ?_)) (Fin.ext ?_)
    · show (i 0).val % 1024 / 512 = t.1.1.val
      omega
    · show (i 0).val / 1024 = t.1.2.val
      omega
    · show (i 0).val % 512 / 128 = t.2.val
      omega

/-! ## A scratch buffer as its four chunks -/

theorem sV_split (d : Dev nD) (c : Fin τ.nSC) (i : Fin τ.nSub) (f : Buf (Elt F) ((V d c i).loc cc0_scratch0)) :
    ((V d c i).loc cc0_scratch0 ↦{fullShare} f : sProp 𝕄)
      = iprop(((sSl0).view.loc (V d c i) ↦[(sSl0).view.set]{fullShare} f) ∗ ((sSl1).view.loc (V d c i) ↦[(sSl1).view.set]{fullShare} f)
          ∗ ((sSl2).view.loc (V d c i) ↦[(sSl2).view.set]{fullShare} f) ∗ ((sSl3).view.loc (V d c i) ↦[(sSl3).view.set]{fullShare} f)) := by
  have h : ((V d c i).loc cc0_scratch0 ↦[Finset.univ.biUnion sChunk]{fullShare} f : sProp 𝕄) = _ :=
    pointsTo_biUnion (ℓ := (V d c i).loc cc0_scratch0) (q := fullShare) (f := f) Finset.univ sChunk sChunk_disj
  rw [sChunk_cover] at h
  exact h.trans (bigSep_univ_four _)

theorem rV_split (d : Dev nD) (c : Fin τ.nSC) (i : Fin τ.nSub) (f : Buf (Elt F) ((V d c i).loc cc0_scratch1)) :
    ((V d c i).loc cc0_scratch1 ↦{fullShare} f : sProp 𝕄)
      = iprop(((rSl0).view.loc (V d c i) ↦[(rSl0).view.set]{fullShare} f) ∗ ((rSl1).view.loc (V d c i) ↦[(rSl1).view.set]{fullShare} f)
          ∗ ((rSl2).view.loc (V d c i) ↦[(rSl2).view.set]{fullShare} f) ∗ ((rSl3).view.loc (V d c i) ↦[(rSl3).view.set]{fullShare} f)) := by
  have h : ((V d c i).loc cc0_scratch1 ↦[Finset.univ.biUnion rChunk]{fullShare} f : sProp 𝕄) = _ :=
    pointsTo_biUnion (ℓ := (V d c i).loc cc0_scratch1) (q := fullShare) (f := f) Finset.univ rChunk rChunk_disj
  rw [rChunk_cover] at h
  exact h.trans (bigSep_univ_four _)

/-- Four chunks held at four contents are the whole scratch at some contents. -/
theorem rV_join (d : Dev nD) (c : Fin τ.nSC) (i : Fin τ.nSub) (f0 f1 f2 f3 : Buf (Elt F) ((V d c i).loc cc0_scratch1)) :
    iprop(((rSl0).view.loc (V d c i) ↦[(rSl0).view.set]{fullShare} f0) ∗ ((rSl1).view.loc (V d c i) ↦[(rSl1).view.set]{fullShare} f1)
          ∗ ((rSl2).view.loc (V d c i) ↦[(rSl2).view.set]{fullShare} f2) ∗ ((rSl3).view.loc (V d c i) ↦[(rSl3).view.set]{fullShare} f3))
      ⊢ (iprop(∃ f, (V d c i).loc cc0_scratch1 ↦{fullShare} f) : sProp 𝕄) := by
  let fs : Fin 4 → Buf (Elt F) ((V d c i).loc cc0_scratch1) := fun | 0 => f0 | 1 => f1 | 2 => f2 | 3 => f3
  have hj : (bigSep Finset.univ (fun t => ((V d c i).loc cc0_scratch1 ↦[rChunk t]{fullShare} fs t : sProp 𝕄))) ⊢ _ :=
    pointsTo_biUnion_join (ℓ := (V d c i).loc cc0_scratch1) (q := fullShare) Finset.univ rChunk fs f0 rChunk_disj
  rw [rChunk_cover, bigSep_univ_four] at hj
  have h2 : (iprop(∃ g, ⌜∀ t ∈ (Finset.univ : Finset (Fin 4)), ∀ j ∈ rChunk t, g j = fs t j⌝ ∗ (V d c i).loc cc0_scratch1 ↦{fullShare} g) : sProp 𝕄)
      ⊢ iprop(∃ f, (V d c i).loc cc0_scratch1 ↦{fullShare} f) := by
    iintro ⟨%g, -, Hg⟩
    iexists g; iexact Hg
  exact hj.trans h2

end Cert.Proof.KB

end
-- ==== Proof.KBV.lean ====
/-
  The embedding lookup on the SparseCore: what the buffers hold along a worker's task, and why the result is right.

  After the fetch the index scratch holds the worker's 512 indices. Gather `r` then writes, at row `y` of chunk `r` of
  the row scratch, the row of the user block that index `128 r + y` names: the table's row `100000 +` that index.
  The copy out writes the chunk to the worker's rows `128 r …` of the result. Row `ρ` of the result is one of the
  worker's exactly when `ρ = 1024 s + 512 c + 128 r + y` for a chunk `r` and `y < 128`, and the index the worker
  fetched at `128 r + y` is the index vector's at `ρ`: so row `ρ` of the result ends as row `100000 + idx[ρ]` of the
  table, the specification `Gout`.
-/
import proofs.«219932_g11020886081826_week1_w3_745_20_alg».proof.Proof.KBS

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S200001x128 EltTy.f32)
local notation "iV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-! ## What the scratches hold -/

/-- After the fetch the index scratch holds the worker's 512 entries of the index vector. -/
def Sidx : Buf (Elt F) ((V d (cV L) (jV L)).loc cc0_scratch0) := (iSl L).view.read (Elt F) (m (iLoc d))

theorem idx_landed (fs : Buf (Elt F) ((V d (cV L) (jV L)).loc cc0_scratch0)) (pay : S512.Idx → Elt F .i32)
    (hpay : pay = (iSl L).view.read (Elt F) (m (iLoc d))) :
    View.write (Elt F) (sV).view fs pay Finset.univ = Sidx m d L := by
  subst hpay; exact View.write_whole_univ _ _ _

theorem Sidx_apply (j : S512.Idx) : Sidx m d L j = m (iLoc d) ((iSl L).view.emb j) :=
  (View.read_apply _ _).trans (cast_eq _ _)

/-! ## Coordinates of an element of a block of rows -/

/-- An element of a unit-stride block of a whole array sits at the block's offset plus its own coordinate. -/
theorem emb_slice_whole {κ : Kind} (b : Ref sig κ) (off size : Fin b.ty.shape.rank → ℕ)
    (inb : ∀ a, off a + size a ≤ b.ty.shape.size a) (hst) (y : (Rect.unit (s := b.ty.shape) off size inb).shape.Idx) (a : Fin b.ty.shape.rank) :
    ((((Memref.whole b).slice (Rect.unit (s := b.ty.shape) off size inb) hst).view.emb y) a : ℕ) = off a + (y a : ℕ) := by
  show ((Rect.unit (s := b.ty.shape) off size inb).emb y a : ℕ) = _
  rw [Rect.emb_apply]
  simp only [Rect.off_unit, Rect.stride_unit, Nat.one_mul]

/-- A buffer read through a view at `y` is the buffer at the element `y` names. -/
theorem read_eq {κ : Kind} {sp : Space} {s : Shape} {e : EltTy} (v : View sig κ sp s e) (g : v.ty.Contents (Elt F)) (y : s.Idx)
    (h : (Elt F) v.ty.elt = (Elt F) e) : HEq (v.read (Elt F) g y) (g (v.emb y)) := by
  rw [View.read_apply]; exact cast_heq _ _

/-- What is read back through a view right after one write of the whole view is what was written. -/
theorem read_writes_whole {κ : Kind} {sp : Space} {s : Shape} {e : EltTy} (v : View sig κ sp s e) (f : v.ty.Contents (Elt F))
    (w : s.Idx → Elt F e) (y : s.Idx) : v.read (Elt F) (v.writes (Elt F) f [⟨Rect.whole s, w⟩]) y = w y := by
  have h := View.read_writes_cons_emb v f (Rect.whole s) w [] y
  rwa [Rect.emb_whole_apply] at h

/-! ## The gathered payload, the chunk of the row scratch, the chunk of the result -/

/-- What gather `r` writes: for each row of the chunk, the row of the user block its index names. -/
abbrev GPo (o : ℕ) (inbS : ∀ a, (![o] : Fin 1 → ℕ) a + S128.size a ≤ S512.size a) (hS : ∀ a, (Rect.unit (s := S512) ![o] S128.size inbS).stride a = 1)
    (hin : ∀ x, (((sV).slice (Rect.unit (s := S512) ![o] S128.size inbS) hS).view.read (Elt F) (Sidx m d L) x).toNat < 100001) :
    S128x128.Idx → Elt F .f32 :=
  SparseCore.gatherPayload gathers_S100001x128_S128x128 ((xUser).view.read (Elt F) (m (xLoc d)))
    (SparseCore.rows (((sV).slice (Rect.unit (s := S512) ![o] S128.size inbS) hS).view.read (Elt F) (Sidx m d L)) rfl hin)

/-- The user block's element `k` is the table's at row `100000 + k₀`. -/
theorem xUser_emb (k : S100001x128.Idx) (a : Fin 2) : (((xUser).view.emb k) a : ℕ) = (![100000, 0] : Fin 2 → ℕ) a + (k a : ℕ) := by
  show ((Rect.unit (s := S200001x128) ![100000, 0] S100001x128.size inb_S200001x128_S100001x128_100000_0).emb
      ((Rect.unit (s := S100001x128) ![0, 0] S100001x128.size inb_S100001x128_S100001x128_0_0).emb k) a : ℕ) = _
  rw [Rect.emb_apply, Rect.emb_apply]
  simp only [Rect.off_unit, Rect.stride_unit, Nat.one_mul]
  match a with
  | ⟨0, _⟩ => show 100000 + (0 + (k 0 : ℕ)) = 100000 + (k 0 : ℕ); omega
  | ⟨1, _⟩ => show 0 + (0 + (k 1 : ℕ)) = 0 + (k 1 : ℕ); omega

/-- Chunk `o / 128` of the result, once gathered and copied out, agrees with the specification on the chunk's rows. -/
theorem out_val (o : ℕ) (w : BitVec 32)
    (inbS : ∀ a, (![o] : Fin 1 → ℕ) a + S128.size a ≤ S512.size a) (hS : ∀ a, (Rect.unit (s := S512) ![o] S128.size inbS).stride a = 1)
    (inbR : ∀ a, (![o, 0] : Fin 2 → ℕ) a + S128x128.size a ≤ S512x128.size a) (hR : ∀ a, (Rect.unit (s := S512x128) ![o, 0] S128x128.size inbR).stride a = 1)
    (inbO : ∀ a, (k0_off2 L w) a + S128x128.size a ≤ S16384x128.size a) (hO : ∀ a, (Rect.unit (s := S16384x128) (k0_off2 L w) S128x128.size inbO).stride a = 1)
    (e : k0_off2 L w = ![1024 * (L 1).val + 512 * (L 0).val + o, 0])
    (fr : Buf (Elt F) ((V d (cV L) (jV L)).loc cc0_scratch1))
    (hin : ∀ x, (((sV).slice (Rect.unit (s := S512) ![o] S128.size inbS) hS).view.read (Elt F) (Sidx m d L) x).toNat < 100001) :
    ∀ i ∈ ((oV).slice (Rect.unit (s := S16384x128) (k0_off2 L w) S128x128.size inbO) hO).view.set,
      ((oV).slice (Rect.unit (s := S16384x128) (k0_off2 L w) S128x128.size inbO) hO).view.writes (Elt F) (m (oLoc d))
        [⟨Rect.whole S128x128, ReadAs.same.apply (((rV).slice (Rect.unit (s := S512x128) ![o, 0] S128x128.size inbR) hR).view.read (Elt F)
          (((rV).slice (Rect.unit (s := S512x128) ![o, 0] S128x128.size inbR) hR).view.writes (Elt F) fr
            [⟨Rect.whole S128x128, GPo m d L o inbS hS hin⟩]))⟩] i
      = Gout m d i := by
  intro i hi
  have hb := (mem_oSl L w o inbO hO e i).mp hi
  have h1 : (i 1).val < 128 := (i 1).isLt
  have hL0 : (L 0).val < 2 := (L 0).isLt
  have hL1 : (L 1).val < 16 := (L 1).isLt
  -- the element's coordinates inside the chunk
  have hy0 : (i 0).val - (1024 * (L 1).val + 512 * (L 0).val + o) < 128 := by omega
  let y : S128x128.Idx := ValueIdx.ix2 (n0 := 128) (n1 := 128) ⟨(i 0).val - (1024 * (L 1).val + 512 * (L 0).val + o), hy0⟩ ⟨(i 1).val, h1⟩
  have hy : ((oV).slice (Rect.unit (s := S16384x128) (k0_off2 L w) S128x128.size inbO) hO).view.emb y = i := by
    funext a; refine Fin.ext ?_
    refine (emb_slice_whole main_v0_scv (k0_off2 L w) S128x128.size inbO hO y a).trans ?_
    have e0 : (k0_off2 L w) 0 = 1024 * (L 1).val + 512 * (L 0).val + o := congrFun e 0
    have e1 : (k0_off2 L w) 1 = 0 := congrFun e 1
    match a with
    | ⟨0, _⟩ => show (k0_off2 L w) 0 + ((i 0).val - (1024 * (L 1).val + 512 * (L 0).val + o)) = (i 0).val; omega
    | ⟨1, _⟩ => show (k0_off2 L w) 1 + (i 1).val = (i 1).val; omega
  -- what the chunk of the result holds there: the gathered payload at `y`
  have hlhs : ((oV).slice (Rect.unit (s := S16384x128) (k0_off2 L w) S128x128.size inbO) hO).view.writes (Elt F) (m (oLoc d))
        [⟨Rect.whole S128x128, ReadAs.same.apply (((rV).slice (Rect.unit (s := S512x128) ![o, 0] S128x128.size inbR) hR).view.read (Elt F)
          (((rV).slice (Rect.unit (s := S512x128) ![o, 0] S128x128.size inbR) hR).view.writes (Elt F) fr
            [⟨Rect.whole S128x128, GPo m d L o inbS hS hin⟩]))⟩] i
      = GPo m d L o inbS hS hin y := by
    conv_lhs => rw [← hy]
    refine ((View.read_apply _ _).trans (cast_eq _ _)).symm.trans ?_
    refine (read_writes_whole _ _ _ y).trans ?_
    show ((rV).slice (Rect.unit (s := S512x128) ![o, 0] S128x128.size inbR) hR).view.read (Elt F) _ y = _
    exact read_writes_whole _ _ _ y
  rw [hlhs]
  -- the payload there: the table at the row the fetched index names
  show (xUser).view.read (Elt F) (m (xLoc d)) (gathers_S100001x128_S128x128.idx
      (SparseCore.rows (((sV).slice (Rect.unit (s := S512) ![o] S128.size inbS) hS).view.read (Elt F) (Sidx m d L)) rfl hin) y) = _
  refine ((View.read_apply _ _).trans (cast_eq _ _)).trans ?_
  unfold Gout
  -- the index the worker fetched for this row is the index vector's at the result's row
  let z : S128.Idx := S128.rowMajor.symm ((y gathers_S100001x128_S128x128.axis').cast (rfl : S128x128.size gathers_S100001x128_S128x128.axis' = S128.numel))
  have hz : (z 0).val = (i 0).val - (1024 * (L 1).val + 512 * (L 0).val + o) := by
    have h := Shape.rowMajor_val_one (d := ![128]) z
    rw [show S128.rowMajor z = _ from Equiv.apply_symm_apply _ _] at h
    exact h.symm
  have hidx : (iSl L).view.emb (((sV).slice (Rect.unit (s := S512) ![o] S128.size inbS) hS).view.emb z) = ValueIdx.ix1 (n := 16384) (i 0) := by
    have f0 : (k0_off1 L) 0 = 1024 * (L 1).val + 512 * (L 0).val := congrFun (k0_off1_eq L) 0
    have hz' : ((((sV).slice (Rect.unit (s := S512) ![o] S128.size inbS) hS).view.emb z) 0 : ℕ) = o + (z 0).val :=
      emb_slice_whole cc0_scratch0 ![o] S128.size inbS hS z 0
    funext a; refine Fin.ext ?_
    refine (emb_slice_whole main_arg1_scv (k0_off1 L) S512.size (k0_off1_inb L) _ _ a).trans ?_
    match a with
    | ⟨0, _⟩ =>
      show (k0_off1 L) 0 + ((((sV).slice (Rect.unit (s := S512) ![o] S128.size inbS) hS).view.emb z) 0 : ℕ) = (i 0).val
      omega
  have hrow : ((SparseCore.rows (((sV).slice (Rect.unit (s := S512) ![o] S128.size inbS) hS).view.read (Elt F) (Sidx m d L)) rfl hin)
      (y gathers_S100001x128_S128x128.axis')).val = (m (iLoc d) (ValueIdx.ix1 (n := 16384) (i 0))).toNat := by
    show ((((sV).slice (Rect.unit (s := S512) ![o] S128.size inbS) hS).view.read (Elt F) (Sidx m d L)) z).toNat = _
    rw [show ((sV).slice (Rect.unit (s := S512) ![o] S128.size inbS) hS).view.read (Elt F) (Sidx m d L) z
        = Sidx m d L (((sV).slice (Rect.unit (s := S512) ![o] S128.size inbS) hS).view.emb z) from (View.read_apply _ _).trans (cast_eq _ _),
      Sidx_apply, hidx]
  have hlt : (m (iLoc d) (ValueIdx.ix1 (n := 16384) (i 0))).toNat < 100001 := by
    rw [← hrow]; exact (SparseCore.rows _ rfl hin _).isLt
  congr 1
  funext a; refine Fin.ext ?_
  refine (xUser_emb _ a).trans ?_
  match a with
  | ⟨0, _⟩ =>
    show 100000 + ((gathers_S100001x128_S128x128.idx _ y) gathers_S100001x128_S128x128.axis : ℕ) = min (100000 + (m (iLoc d) (ValueIdx.ix1 (n := 16384) (i 0))).toNat) 200000
    rw [Shape.Gathers.idx_axis]
    refine (congrArg (fun t : ℕ => 100000 + t) hrow).trans ?_
    omega
  | ⟨1, _⟩ =>
    show 0 + ((gathers_S100001x128_S128x128.idx _ y) (1 : Fin 2) : ℕ) = (i 1).val
    refine (congrArg (fun t : ℕ => 0 + t) (Shape.Gathers.idx_of_ne gathers_S100001x128_S128x128 _ y (1 : Fin 2) (by decide))).trans ?_
    show 0 + (i 1).val = (i 1).val
    omega

end Tile

end Cert.Proof.KB

end
-- ==== Proof.KBB.lean ====
/-
  The embedding lookup on the SparseCore, part two: one worker's task, run once at a symbolic grid point.

  The worker copies its 512 indices in and waits; starts four gathers, each on a semaphore of its own,
  each reading its own 128 indices and writing its own 128 rows of the row scratch; then, chunk by chunk,
  waits for a gather and starts the copy of that chunk to the result, all four copies on one semaphore;
  and last waits four times on that semaphore. No buffer a pending transfer reads or writes is touched
  before the transfer's wait: the four chunks are disjoint, and a chunk's copy out starts after its gather
  has landed. The four copies out are a counted batch: only the last wait returns the chunks.
-/
import proofs.«219932_g11020886081826_week1_w3_745_20_alg».proof.Proof.KBV

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S200001x128 EltTy.f32)
local notation "iV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)
variable [FloatOps F]

section Tile

variable (d : Dev nD) (L : grid0.Coords)

/-! ## What the copies out deliver -/

/-- Chunk 0 of the row scratch after its gather, and chunk 0 of the result after the copy out. -/
abbrev X0 (fr : Buf (Elt F) ((V d (cV L) (jV L)).loc cc0_scratch1)) (h : (∀ x, ((sSl0).view.read (Elt F) (Sidx m d L) x).toNat < 100001)) : Buf (Elt F) ((V d (cV L) (jV L)).loc cc0_scratch1) :=
  (rSl0).view.writes (Elt F) fr [⟨Rect.whole S128x128, GPo m d L 0 inb_S512_S128_0 (fun _ => rfl) h⟩]
abbrev landedX0 (fr : Buf (Elt F) ((V d (cV L) (jV L)).loc cc0_scratch1)) (h : (∀ x, ((sSl0).view.read (Elt F) (Sidx m d L) x).toNat < 100001)) : Buf (Elt F) (oLoc d) :=
  (oSl0 L).view.writes (Elt F) (m (oLoc d)) [⟨Rect.whole S128x128, ReadAs.same.apply ((rSl0).view.read (Elt F) (X0 m d L fr h))⟩]
/-- Chunk 1 of the row scratch after its gather, and chunk 1 of the result after the copy out. -/
abbrev X1 (fr : Buf (Elt F) ((V d (cV L) (jV L)).loc cc0_scratch1)) (h : (∀ x, ((sSl1).view.read (Elt F) (Sidx m d L) x).toNat < 100001)) : Buf (Elt F) ((V d (cV L) (jV L)).loc cc0_scratch1) :=
  (rSl1).view.writes (Elt F) fr [⟨Rect.whole S128x128, GPo m d L 128 inb_S512_S128_128 (fun _ => rfl) h⟩]
abbrev landedX1 (fr : Buf (Elt F) ((V d (cV L) (jV L)).loc cc0_scratch1)) (h : (∀ x, ((sSl1).view.read (Elt F) (Sidx m d L) x).toNat < 100001)) : Buf (Elt F) (oLoc d) :=
  (oSl1 L).view.writes (Elt F) (m (oLoc d)) [⟨Rect.whole S128x128, ReadAs.same.apply ((rSl1).view.read (Elt F) (X1 m d L fr h))⟩]
/-- Chunk 2 of the row scratch after its gather, and chunk 2 of the result after the copy out. -/
abbrev X2 (fr : Buf (Elt F) ((V d (cV L) (jV L)).loc cc0_scratch1)) (h : (∀ x, ((sSl2).view.read (Elt F) (Sidx m d L) x).toNat < 100001)) : Buf (Elt F) ((V d (cV L) (jV L)).loc cc0_scratch1) :=
  (rSl2).view.writes (Elt F) fr [⟨Rect.whole S128x128, GPo m d L 256 inb_S512_S128_256 (fun _ => rfl) h⟩]
abbrev landedX2 (fr : Buf (Elt F) ((V d (cV L) (jV L)).loc cc0_scratch1)) (h : (∀ x, ((sSl2).view.read (Elt F) (Sidx m d L) x).toNat < 100001)) : Buf (Elt F) (oLoc d) :=
  (oSl2 L).view.writes (Elt F) (m (oLoc d)) [⟨Rect.whole S128x128, ReadAs.same.apply ((rSl2).view.read (Elt F) (X2 m d L fr h))⟩]
/-- Chunk 3 of the row scratch after its gather, and chunk 3 of the result after the copy out. -/
abbrev X3 (fr : Buf (Elt F) ((V d (cV L) (jV L)).loc cc0_scratch1)) (h : (∀ x, ((sSl3).view.read (Elt F) (Sidx m d L) x).toNat < 100001)) : Buf (Elt F) ((V d (cV L) (jV L)).loc cc0_scratch1) :=
  (rSl3).view.writes (Elt F) fr [⟨Rect.whole S128x128, GPo m d L 384 inb_S512_S128_384 (fun _ => rfl) h⟩]
abbrev landedX3 (fr : Buf (Elt F) ((V d (cV L) (jV L)).loc cc0_scratch1)) (h : (∀ x, ((sSl3).view.read (Elt F) (Sidx m d L) x).toNat < 100001)) : Buf (Elt F) (oLoc d) :=
  (oSl3 L).view.writes (Elt F) (m (oLoc d)) [⟨Rect.whole S128x128, ReadAs.same.apply ((rSl3).view.read (Elt F) (X3 m d L fr h))⟩]

/-- The four copies out, a batch on one semaphore: copy `r` delivers chunk `r` of the result written and chunk `r` of the
    row scratch back. -/
def deliv (fr : Buf (Elt F) ((V d (cV L) (jV L)).loc cc0_scratch1)) (h0 : (∀ x, ((sSl0).view.read (Elt F) (Sidx m d L) x).toNat < 100001)) (h1 : (∀ x, ((sSl1).view.read (Elt F) (Sidx m d L) x).toNat < 100001)) (h2 : (∀ x, ((sSl2).view.read (Elt F) (Sidx m d L) x).toNat < 100001)) (h3 : (∀ x, ((sSl3).view.read (Elt F) (Sidx m d L) x).toNat < 100001)) : Fin 4 → sProp 𝕄
  | 0 => iprop(((oSl0 L).view.loc (V d (cV L) (jV L)) ↦[(oSl0 L).view.set]{fullShare} landedX0 m d L fr h0) ∗ ((rSl0).view.loc (V d (cV L) (jV L)) ↦[(rSl0).view.set]{fullShare} X0 m d L fr h0))
  | 1 => iprop(((oSl1 L).view.loc (V d (cV L) (jV L)) ↦[(oSl1 L).view.set]{fullShare} landedX1 m d L fr h1) ∗ ((rSl1).view.loc (V d (cV L) (jV L)) ↦[(rSl1).view.set]{fullShare} X1 m d L fr h1))
  | 2 => iprop(((oSl2 L).view.loc (V d (cV L) (jV L)) ↦[(oSl2 L).view.set]{fullShare} landedX2 m d L fr h2) ∗ ((rSl2).view.loc (V d (cV L) (jV L)) ↦[(rSl2).view.set]{fullShare} X2 m d L fr h2))
  | 3 => iprop(((oSl3 L).view.loc (V d (cV L) (jV L)) ↦[(oSl3 L).view.set]{fullShare} landedX3 m d L fr h3) ∗ ((rSl3).view.loc (V d (cV L) (jV L)) ↦[(rSl3).view.set]{fullShare} X3 m d L fr h3))

instance deliv_storable (fr : Buf (Elt F) ((V d (cV L) (jV L)).loc cc0_scratch1)) (h0 : (∀ x, ((sSl0).view.read (Elt F) (Sidx m d L) x).toNat < 100001)) (h1 : (∀ x, ((sSl1).view.read (Elt F) (Sidx m d L) x).toNat < 100001)) (h2 : (∀ x, ((sSl2).view.read (Elt F) (Sidx m d L) x).toNat < 100001)) (h3 : (∀ x, ((sSl3).view.read (Elt F) (Sidx m d L) x).toNat < 100001)) (r : Fin 4) :
    BI.Storable (upEmb : UEmb _ 𝕄) (deliv m d L fr h0 h1 h2 h3 r) := by
  match r with
  | 0 => unfold deliv; infer_instance
  | 1 => unfold deliv; infer_instance
  | 2 => unfold deliv; infer_instance
  | 3 => unfold deliv; infer_instance

/-- One chunk's credit. -/
abbrev NB : ℕ := (oSl0 L).view.amount (SemLoc.dma (sig := sig) cc0_scratch6.sem)

/-- Every fetched index names a row of the user block: the gathers' offsets are in range. -/
theorem hin0 (hpre : PreOK m) : ∀ x, ((sSl0).view.read (Elt F) (Sidx m d L) x).toNat < 100001 := fun x => by
  rw [show (sSl0).view.read (Elt F) (Sidx m d L) x = Sidx m d L ((sSl0).view.emb x) from (View.read_apply _ _).trans (cast_eq _ _), Sidx_apply]
  exact Nat.lt_succ_of_lt (hpre d _)
theorem hin1 (hpre : PreOK m) : ∀ x, ((sSl1).view.read (Elt F) (Sidx m d L) x).toNat < 100001 := fun x => by
  rw [show (sSl1).view.read (Elt F) (Sidx m d L) x = Sidx m d L ((sSl1).view.emb x) from (View.read_apply _ _).trans (cast_eq _ _), Sidx_apply]
  exact Nat.lt_succ_of_lt (hpre d _)
theorem hin2 (hpre : PreOK m) : ∀ x, ((sSl2).view.read (Elt F) (Sidx m d L) x).toNat < 100001 := fun x => by
  rw [show (sSl2).view.read (Elt F) (Sidx m d L) x = Sidx m d L ((sSl2).view.emb x) from (View.read_apply _ _).trans (cast_eq _ _), Sidx_apply]
  exact Nat.lt_succ_of_lt (hpre d _)
theorem hin3 (hpre : PreOK m) : ∀ x, ((sSl3).view.read (Elt F) (Sidx m d L) x).toNat < 100001 := fun x => by
  rw [show (sSl3).view.read (Elt F) (Sidx m d L) x = Sidx m d L ((sSl3).view.emb x) from (View.read_apply _ _).trans (cast_eq _ _), Sidx_apply]
  exact Nat.lt_succ_of_lt (hpre d _)

/-- What each delivered chunk of the result holds is the specification on the chunk's rows. -/
theorem out_val0 (fr : Buf (Elt F) ((V d (cV L) (jV L)).loc cc0_scratch1)) (h : (∀ x, ((sSl0).view.read (Elt F) (Sidx m d L) x).toNat < 100001)) :
    ∀ i ∈ (oSl0 L).view.set, landedX0 m d L fr h i = Gout m d i :=
  out_val m d L 0 0#32 inb_S512_S128_0 (fun _ => rfl) inb_S512x128_S128x128_0_0 (fun _ => rfl) (k0_off2_inb L 0) (fun _ => rfl) (k0_off2_eq L 0) fr h
theorem out_val1 (fr : Buf (Elt F) ((V d (cV L) (jV L)).loc cc0_scratch1)) (h : (∀ x, ((sSl1).view.read (Elt F) (Sidx m d L) x).toNat < 100001)) :
    ∀ i ∈ (oSl1 L).view.set, landedX1 m d L fr h i = Gout m d i :=
  out_val m d L 128 128#32 inb_S512_S128_128 (fun _ => rfl) inb_S512x128_S128x128_128_0 (fun _ => rfl) (k0_off2_inb L 1) (fun _ => rfl) (k0_off2_eq L 1) fr h
theorem out_val2 (fr : Buf (Elt F) ((V d (cV L) (jV L)).loc cc0_scratch1)) (h : (∀ x, ((sSl2).view.read (Elt F) (Sidx m d L) x).toNat < 100001)) :
    ∀ i ∈ (oSl2 L).view.set, landedX2 m d L fr h i = Gout m d i :=
  out_val m d L 256 256#32 inb_S512_S128_256 (fun _ => rfl) inb_S512x128_S128x128_256_0 (fun _ => rfl) (k0_off2_inb L 2) (fun _ => rfl) (k0_off2_eq L 2) fr h
theorem out_val3 (fr : Buf (Elt F) ((V d (cV L) (jV L)).loc cc0_scratch1)) (h : (∀ x, ((sSl3).view.read (Elt F) (Sidx m d L) x).toNat < 100001)) :
    ∀ i ∈ (oSl3 L).view.set, landedX3 m d L fr h i = Gout m d i :=
  out_val m d L 384 384#32 inb_S512_S128_384 (fun _ => rfl) inb_S512x128_S128x128_384_0 (fun _ => rfl) (k0_off2_inb L 3) (fun _ => rfl) (k0_off2_eq L 3) fr h

/-- A delivered chunk of the result, restated at the specification. -/
theorem out_pts0 (fr : Buf (Elt F) ((V d (cV L) (jV L)).loc cc0_scratch1)) (h : (∀ x, ((sSl0).view.read (Elt F) (Sidx m d L) x).toNat < 100001)) :
    ((oSl0 L).view.loc (V d (cV L) (jV L)) ↦[(oSl0 L).view.set]{fullShare} landedX0 m d L fr h : sProp 𝕄)
      = (oLoc d ↦[(oSl0 L).view.set]{fullShare} Gout m d) := pointsTo_congr (out_val0 m d L fr h)
theorem out_pts1 (fr : Buf (Elt F) ((V d (cV L) (jV L)).loc cc0_scratch1)) (h : (∀ x, ((sSl1).view.read (Elt F) (Sidx m d L) x).toNat < 100001)) :
    ((oSl1 L).view.loc (V d (cV L) (jV L)) ↦[(oSl1 L).view.set]{fullShare} landedX1 m d L fr h : sProp 𝕄)
      = (oLoc d ↦[(oSl1 L).view.set]{fullShare} Gout m d) := pointsTo_congr (out_val1 m d L fr h)
theorem out_pts2 (fr : Buf (Elt F) ((V d (cV L) (jV L)).loc cc0_scratch1)) (h : (∀ x, ((sSl2).view.read (Elt F) (Sidx m d L) x).toNat < 100001)) :
    ((oSl2 L).view.loc (V d (cV L) (jV L)) ↦[(oSl2 L).view.set]{fullShare} landedX2 m d L fr h : sProp 𝕄)
      = (oLoc d ↦[(oSl2 L).view.set]{fullShare} Gout m d) := pointsTo_congr (out_val2 m d L fr h)
theorem out_pts3 (fr : Buf (Elt F) ((V d (cV L) (jV L)).loc cc0_scratch1)) (h : (∀ x, ((sSl3).view.read (Elt F) (Sidx m d L) x).toNat < 100001)) :
    ((oSl3 L).view.loc (V d (cV L) (jV L)) ↦[(oSl3 L).view.set]{fullShare} landedX3 m d L fr h : sProp 𝕄)
      = (oLoc d ↦[(oSl3 L).view.set]{fullShare} Gout m d) := pointsTo_congr (out_val3 m d L fr h)

omit [FloatOps F] in
/-- The six DMA semaphores the kernel names are among the subcore's own cells: they are them, and the rest. -/
theorem ownSems0_V :
    (ownSems0 (V d (cV L) (jV L)) : sProp 𝕄)
      = iprop(semVal (V d (cV L) (jV L), SemLoc.dma cc0_scratch2.sem) 0
          ∗ semVal (V d (cV L) (jV L), SemLoc.dma cc0_scratch3.sem) 0
          ∗ semVal (V d (cV L) (jV L), SemLoc.dma cc0_scratch4.sem) 0
          ∗ semVal (V d (cV L) (jV L), SemLoc.dma cc0_scratch5.sem) 0
          ∗ semVal (V d (cV L) (jV L), SemLoc.dma cc0_scratch6.sem) 0
          ∗ semVal (V d (cV L) (jV L), SemLoc.dma cc0_scoped0.sem) 0
          ∗ bigSep (((((((ownCells (V d (cV L) (jV L))).erase (V d (cV L) (jV L), SemLoc.dma cc0_scratch2.sem)).erase (V d (cV L) (jV L), SemLoc.dma cc0_scratch3.sem)).erase (V d (cV L) (jV L), SemLoc.dma cc0_scratch4.sem)).erase (V d (cV L) (jV L), SemLoc.dma cc0_scratch5.sem)).erase (V d (cV L) (jV L), SemLoc.dma cc0_scratch6.sem)).erase (V d (cV L) (jV L), SemLoc.dma cc0_scoped0.sem)) fun g => semVal g 0) := by
  unfold SparseCore.Cfg.ownSems0
  rw [SparseCore.bigSep_erase' ((mem_ownCells (g := (V d (cV L) (jV L), SemLoc.dma cc0_scratch2.sem))).mpr ⟨rfl, by show (SemLoc.dma cc0_scratch2.sem : SemLoc sig).isScoped .scVector = true; decide⟩),
    SparseCore.bigSep_erase' (Finset.mem_erase.mpr ⟨fun e => absurd (Prod.mk.inj e).2 (by decide), (mem_ownCells (g := (V d (cV L) (jV L), SemLoc.dma cc0_scratch3.sem))).mpr ⟨rfl, by show (SemLoc.dma cc0_scratch3.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (V d (cV L) (jV L), SemLoc.dma cc0_scratch4.sem))).mpr ⟨rfl, by show (SemLoc.dma cc0_scratch4.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scratch5.sem))).mpr ⟨rfl, by show (SemLoc.dma cc0_scratch5.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scratch6.sem))).mpr ⟨rfl, by show (SemLoc.dma cc0_scratch6.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped0.sem))).mpr ⟨rfl, by show (SemLoc.dma cc0_scoped0.sem : SemLoc sig).isScoped .scVector = true; decide⟩⟩⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxRecDepth 131072 in
set_option maxHeartbeats 4000000 in
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ (iPtsL m d L ∗ xPts m d q ∗ oPtsL d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) iV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop((iPtsL m d L ∗ xPts m d q ∗ oPtsL d L (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  unfold oPtsL oSet
  iintro ⟨#Hlv, -, ⟨Hi, Hx, Ho0, Ho1, Ho2, Ho3⟩, ⟨⟨%fs, Hs⟩, ⟨%fr, Hr⟩, Hbufs⟩, ⟨Hc2, Hc3, Hc4, Hc5, Hc6, Hc0, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv

  -- the arrays as the subcore's memrefs address them
  ihave Hi' := (Entails.of_eq (show (iLoc d ↦[iSet L]{fullShare} m (iLoc d) : sProp 𝕄)
      = ((iSl L).view.loc (V d (cV L) (jV L)) ↦[(iSl L).view.set]{fullShare} m (iLoc d)) from rfl)) $$ Hi
  ihave Ho0' := (Entails.of_eq (show (oLoc d ↦[(oSl0 L).view.set]{fullShare} m (oLoc d) : sProp 𝕄)
      = ((oSl0 L).view.loc (V d (cV L) (jV L)) ↦[(oSl0 L).view.set]{fullShare} m (oLoc d)) from rfl)) $$ Ho0
  ihave Ho1' := (Entails.of_eq (show (oLoc d ↦[(oSl1 L).view.set]{fullShare} m (oLoc d) : sProp 𝕄)
      = ((oSl1 L).view.loc (V d (cV L) (jV L)) ↦[(oSl1 L).view.set]{fullShare} m (oLoc d)) from rfl)) $$ Ho1
  ihave Ho2' := (Entails.of_eq (show (oLoc d ↦[(oSl2 L).view.set]{fullShare} m (oLoc d) : sProp 𝕄)
      = ((oSl2 L).view.loc (V d (cV L) (jV L)) ↦[(oSl2 L).view.set]{fullShare} m (oLoc d)) from rfl)) $$ Ho2
  ihave Ho3' := (Entails.of_eq (show (oLoc d ↦[(oSl3 L).view.set]{fullShare} m (oLoc d) : sProp 𝕄)
      = ((oSl3 L).view.loc (V d (cV L) (jV L)) ↦[(oSl3 L).view.set]{fullShare} m (oLoc d)) from rfl)) $$ Ho3
  ihave Hs' := (Entails.of_eq (show ((V d (cV L) (jV L)).loc cc0_scratch0 ↦{fullShare} fs : sProp 𝕄)
      = ((sV).view.loc (V d (cV L) (jV L)) ↦{fullShare} fs) from rfl)) $$ Hs
  ihave Hr4 := (Entails.of_eq (rV_split (F := F) d (cV L) (jV L) fr)) $$ Hr
  icases Hr4 with ⟨Hr0, Hr1, Hr2, Hr3⟩
  -- the table's share as four read tokens, one per gather's semaphore, and the remainder
  ihave Hxs := (Transfers.pointsTo_toks_split q 4) $$ Hx
  icases Hxs with ⟨Hxd, Hxt⟩
  ihave Hxt' := (Entails.of_eq (bigSep_univ_four (fun i : Fin 4 => (xLoc d ↦{Transfers.shareTok q 4 i} m (xLoc d) : sProp 𝕄)))) $$ Hxt
  icases Hxt' with ⟨Hx0, Hx1, Hx2, Hx3⟩
  ihave Hx0' := (Entails.of_eq (show (xLoc d ↦{Transfers.shareTok q 4 0} m (xLoc d) : sProp 𝕄)
      = ((xV).view.loc (V d (cV L) (jV L)) ↦{Transfers.shareTok q 4 0} m (xLoc d)) from rfl)) $$ Hx0
  ihave Hx1' := (Entails.of_eq (show (xLoc d ↦{Transfers.shareTok q 4 1} m (xLoc d) : sProp 𝕄)
      = ((xV).view.loc (V d (cV L) (jV L)) ↦{Transfers.shareTok q 4 1} m (xLoc d)) from rfl)) $$ Hx1
  ihave Hx2' := (Entails.of_eq (show (xLoc d ↦{Transfers.shareTok q 4 2} m (xLoc d) : sProp 𝕄)
      = ((xV).view.loc (V d (cV L) (jV L)) ↦{Transfers.shareTok q 4 2} m (xLoc d)) from rfl)) $$ Hx2
  ihave Hx3' := (Entails.of_eq (show (xLoc d ↦{Transfers.shareTok q 4 3} m (xLoc d) : sProp 𝕄)
      = ((xV).view.loc (V d (cV L) (jV L)) ↦{Transfers.shareTok q 4 3} m (xLoc d)) from rfl)) $$ Hx3
  sl_exec
  -- the index scratch holds the worker's entries; as its four chunks
  have hS := idx_landed m d L fs (tile_body.sl.dma0 m d L) rfl
  ihave Hs2 := (Entails.of_eq (show ((sV).view.loc (V d (cV L) (jV L)) ↦{fullShare} View.write (Elt F) (sV).view fs (tile_body.sl.dma0 m d L) Finset.univ : sProp 𝕄)
      = ((V d (cV L) (jV L)).loc cc0_scratch0 ↦{fullShare} Sidx m d L) by rw [hS])) $$ Hs'
  ihave Hs4 := (Entails.of_eq (sV_split (F := F) d (cV L) (jV L) (Sidx m d L))) $$ Hs2
  icases Hs4 with ⟨Hs0, Hs1, Hs2, Hs3⟩
  have hi0 := hin0 m d L hpre
  have hi1 := hin1 m d L hpre
  have hi2 := hin2 m d L hpre
  have hi3 := hin3 m d L hpre
  imod (Transfers.batch_alloc' (Lvl := ℕ) (countersEmb (U := UU)) (V d (cV L) (jV L)) (default : HIx 1) (NB L) (deliv m d L fr hi0 hi1 hi2 hi3) (sm := .dma cc0_scratch6.sem) (E := Set.univ)) $$ Hc6 with HB
  sl_exec
  sl_step
  -- the result's chunks at the specification
  ihave Ho0g := (Entails.of_eq (out_pts0 m d L fr hi0)) $$ HB_dst0
  ihave Ho1g := (Entails.of_eq (out_pts1 m d L fr hi1)) $$ HB_dst1
  ihave Ho2g := (Entails.of_eq (out_pts2 m d L fr hi2)) $$ HB_dst2
  ihave Ho3g := (Entails.of_eq (out_pts3 m d L fr hi3)) $$ HB_dst3
  -- the table's share whole again
  ihave Hx := (Transfers.pointsTo_toks_join (ℓ := xLoc d) (S := Finset.univ) (f := m (xLoc d)) q 4) $$ [Hxd Hx0' Hx1' Hx2' Hx3']
  · isplitl [Hxd]; · iexact Hxd
    iapply (Entails.of_eq (bigSep_univ_four (fun i : Fin 4 => (xLoc d ↦{Transfers.shareTok q 4 i} m (xLoc d) : sProp 𝕄))).symm)
    isplitl [Hx0']; · iexact Hx0'
    isplitl [Hx1']; · iexact Hx1'
    isplitl [Hx2']; · iexact Hx2'
    iexact Hx3'
  -- the index scratch whole again; the row scratch whole at some contents
  ihave Hs := (Entails.of_eq (sV_split (F := F) d (cV L) (jV L) (Sidx m d L)).symm) $$ [Hs0 Hs1 Hs2 Hs3]
  · isplitl [Hs0]; · iexact Hs0
    isplitl [Hs1]; · iexact Hs1
    isplitl [Hs2]; · iexact Hs2
    iexact Hs3
  ihave Hr := (rV_join (F := F) d (cV L) (jV L) (X0 m d L fr hi0) (X1 m d L fr hi1) (X2 m d L fr hi2) (X3 m d L fr hi3)) $$ [HB_src0 HB_src1 HB_src2 HB_src3]
  · isplitl [HB_src0]; · iexact HB_src0
    isplitl [HB_src1]; · iexact HB_src1
    isplitl [HB_src2]; · iexact HB_src2
    iexact HB_src3
  isplitl [Hi' Hx Ho0g Ho1g Ho2g Ho3g]
  · isplitl [Hi']; · iexact Hi'
    isplitl [Hx]; · iexact Hx
    isplitl [Ho0g]; · iexact Ho0g
    isplitl [Ho1g]; · iexact Ho1g
    isplitl [Ho2g]; · iexact Ho2g
    iexact Ho3g
  isplitl [Hs Hr Hbufs]
  · isplitl [Hs]; · iexists _; iexact Hs
    isplitl [Hr]; · iexact Hr
    iexact Hbufs
  isplitl [Hc2 Hc3 Hc4 Hc5 HB Hc0 Hsems]
  · isplitl [Hc2]; · iexact Hc2
    isplitl [Hc3]; · iexact Hc3
    isplitl [Hc4]; · iexact Hc4
    isplitl [Hc5]; · iexact Hc5
    isplitl [HB]; · iexact HB
    isplitl [Hc0]; · iexact Hc0
    iexact Hsems
  iexists _; isplitr
  swap; · iexact HO
  ipureintro; intro p hp
  repeat (rcases Finset.mem_insert.mp hp with hp | hp; · exact .inr (hp ▸ rfl))
  exact .inl hp

end Tile

end Cert.Proof.KB

end
-- ==== Proof.KBL.lean ====
/-
  The embedding lookup on the SparseCore, part three: from one worker's task to the whole program's run.

  The launch theorem takes: every task proved (the task of part two at the grid point of subcore `i` of SparseCore
  `c`); how a SparseCore's operands split among its sixteen tasks (its share of the table cut in sixteen; its
  entries of the index vector and its rows of the result are the tasks' own, side by side); @main on the TensorCore
  (one call: the three arrays split for the two SparseCores, handed over, taken back and joined again, the result now
  the gathered rows); and how the final memory reads the claim.
-/
import proofs.«219932_g11020886081826_week1_w3_745_20_alg».proof.Proof.KBB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg0_scv : Memref Cert.Kernel.sig Kind.scVector Space.hbm Cert.Kernel.S200001x128 EltTy.f32)
local notation "iV" => (Memref.whole Cert.Kernel.main_arg1_scv : Memref Cert.Kernel.sig Kind.scVector Space.hbm Cert.Kernel.S16384 EltTy.i32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)
variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_gather (coordsV c s)
          xV (Memref.isWhole_whole _) iV (Memref.isWhole_whole _) oV (Memref.isWhole_whole _)
          sV (Memref.isWhole_whole _) rV (Memref.isWhole_whole _) cc0_scratch2 cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre (xqT (Fin.cast nCore_zero c) (Fin.cast nSub_zero i)) O W hO).trans
    (wp_mono frame _ _ fun _ => obl_post)

/-! ## A SparseCore's operands among its sixteen tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sixteen tasks' operands, side by side, are the SparseCore's: its entries and rows are the tasks' own, its share
    of the table the sixteen pieces. -/
theorem go_eq (d : Dev nD) (c' : Fin 2) (f : Buf (Elt F) (oLoc d)) :
    (bigSep Finset.univ fun i : Fin ((K (F := F)).nSub 0) => goT m d c' (Fin.cast nSub_zero i) f)
      = iprop((bigSep Finset.univ fun i : Fin 16 => iPtsL m d (LK c' i)) ∗ xPts m d (xqC c') ∗ (bigSep Finset.univ fun i : Fin 16 => oPtsL d (LK c' i) f)) := by
  have hX : (bigSep Finset.univ fun i : Fin 16 => xPts m d (xqT c' i)) = xPts m d (xqC c') :=
    (pointsTo_piecesOf (ℓ := xLoc d) Finset.univ (m (xLoc d)) (o := 16) (by decide) (xqC c')).symm
  rw [bigSep_tasks (F := F) (fun i => goT m d c' i f),
    show (fun i : Fin 16 => goT m d c' i f) = fun i => iprop(iPtsL m d (LK c' i) ∗ (xPts m d (xqT c' i) ∗ oPtsL d (LK c' i) f)) from rfl,
    bigSep_sep' Finset.univ (fun i : Fin 16 => iPtsL m d (LK c' i)) (fun i => iprop(xPts m d (xqT c' i) ∗ oPtsL d (LK c' i) f)),
    bigSep_sep' Finset.univ (fun i : Fin 16 => xPts m d (xqT c' i)) (fun i => oPtsL d (LK c' i) f), hX]

theorem vecSplit : (K (F := F)).VecSplit' (P m) 0 := by
  intro d c
  show iprop((bigSep Finset.univ fun i : Fin 16 => iPtsL m d (LK (Fin.cast nCore_zero c) i)) ∗ xPts m d (xqC (Fin.cast nCore_zero c))
      ∗ (bigSep Finset.univ fun i : Fin 16 => oPtsL d (LK (Fin.cast nCore_zero c) i) (m (oLoc d))))
    ⊢ |={Set.univ}=> iprop(
      (bigSep Finset.univ fun i : Fin ((K (F := F)).nSub 0) => goT m d (Fin.cast nCore_zero c) (Fin.cast nSub_zero i) (m (oLoc d)))
      ∗ ((bigSep Finset.univ fun i : Fin ((K (F := F)).nSub 0) => goT m d (Fin.cast nCore_zero c) (Fin.cast nSub_zero i) (Gout m d))
          -∗ iprop((bigSep Finset.univ fun i : Fin 16 => iPtsL m d (LK (Fin.cast nCore_zero c) i)) ∗ xPts m d (xqC (Fin.cast nCore_zero c))
              ∗ (bigSep Finset.univ fun i : Fin 16 => oPtsL d (LK (Fin.cast nCore_zero c) i) (Gout m d)))))
  rw [go_eq, go_eq]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, whole, as the two SparseCores' parts -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The index vector whole is the thirty-two workers' entries. -/
theorem iPts_split (d : Dev nD) (f : Buf (Elt F) (iLoc d)) :
    (iLoc d ↦{fullShare} f : sProp 𝕄)
      = bigSep Finset.univ fun c : Fin 2 => bigSep Finset.univ fun s : Fin 16 => iLoc d ↦[iSet (LK c s)]{fullShare} f := by
  have h : (iLoc d ↦[Finset.univ.biUnion (fun t : Fin 2 × Fin 16 => iSet (LK t.1 t.2))]{fullShare} f : sProp 𝕄) = _ :=
    pointsTo_biUnion (ℓ := iLoc d) (q := fullShare) (f := f) Finset.univ (fun t : Fin 2 × Fin 16 => iSet (LK t.1 t.2)) iSet_disj
  rw [iSet_cover] at h
  exact h.trans (bigSep_univ_prod (fun t : Fin 2 × Fin 16 => (iLoc d ↦[iSet (LK t.1 t.2)]{fullShare} f : sProp 𝕄)))

omit [FloatOps F] in
/-- The result whole is the thirty-two workers' four chunks each. -/
theorem oPts_split (d : Dev nD) (f : Buf (Elt F) (oLoc d)) :
    (oLoc d ↦{fullShare} f : sProp 𝕄)
      = bigSep Finset.univ fun c : Fin 2 => bigSep Finset.univ fun s : Fin 16 => oPtsL d (LK c s) f := by
  have h : (oLoc d ↦[Finset.univ.biUnion (fun t : (Fin 2 × Fin 16) × Fin 4 => oSet (LK t.1.1 t.1.2) t.2)]{fullShare} f : sProp 𝕄) = _ :=
    pointsTo_biUnion (ℓ := oLoc d) (q := fullShare) (f := f) Finset.univ (fun t : (Fin 2 × Fin 16) × Fin 4 => oSet (LK t.1.1 t.1.2) t.2) oSet_disj
  rw [oSet_cover] at h
  refine h.trans ?_
  rw [bigSep_univ_prod (fun t : (Fin 2 × Fin 16) × Fin 4 => (oLoc d ↦[oSet (LK t.1.1 t.1.2) t.2]{fullShare} f : sProp 𝕄)),
    bigSep_univ_prod (fun t : Fin 2 × Fin 16 => bigSep Finset.univ fun r : Fin 4 => (oLoc d ↦[oSet (LK t.1 t.2) r]{fullShare} f : sProp 𝕄))]
  refine bigSep_congr fun c _ => bigSep_congr fun s _ => ?_
  exact bigSep_univ_four _

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores is the three arrays whole, and so is what it hands back. -/
theorem st_dn_eq (d : Dev nD) (f : Buf (Elt F) (oLoc d)) :
    (bigSep Finset.univ fun c : Fin ((K (F := F)).nCore 0) =>
        iprop((bigSep Finset.univ fun i : Fin 16 => iPtsL m d (LK (Fin.cast nCore_zero c) i)) ∗ xPts m d (xqC (Fin.cast nCore_zero c))
          ∗ (bigSep Finset.univ fun i : Fin 16 => oPtsL d (LK (Fin.cast nCore_zero c) i) f)))
      = iprop((iLoc d ↦{fullShare} m (iLoc d)) ∗ (xLoc d ↦{fullShare} m (xLoc d)) ∗ oLoc d ↦{fullShare} f) := by
  rw [bigSep_cores (F := F) (fun c => iprop((bigSep Finset.univ fun i : Fin 16 => iPtsL m d (LK c i)) ∗ xPts m d (xqC c)
          ∗ (bigSep Finset.univ fun i : Fin 16 => oPtsL d (LK c i) f))),
    bigSep_sep', bigSep_sep', iPts_split, oPts_split,
    pointsTo_piecesOf (ℓ := xLoc d) Finset.univ (m (xLoc d)) (o := 2) (by decide) fullShare]

theorem st0_eq (d : Dev nD) :
    (bigSep Finset.univ fun c : Fin ((K (F := F)).nCore 0) => (P m).st 0 d c)
      = iprop((iLoc d ↦{fullShare} m (iLoc d)) ∗ (xLoc d ↦{fullShare} m (xLoc d)) ∗ oLoc d ↦{fullShare} m (oLoc d)) := st_dn_eq m d (m (oLoc d))
theorem dn0_eq (d : Dev nD) :
    (bigSep Finset.univ fun c : Fin ((K (F := F)).nCore 0) => (P m).dn 0 d c)
      = iprop((iLoc d ↦{fullShare} m (iLoc d)) ∗ (xLoc d ↦{fullShare} m (xLoc d)) ∗ oLoc d ↦{fullShare} Gout m d) := st_dn_eq m d (Gout m d)

abbrev FIN (d : Dev nD) : sProp 𝕄 := iprop((iLoc d ↦{fullShare} m (iLoc d)) ∗ (xLoc d ↦{fullShare} m (xLoc d)) ∗ oLoc d ↦{fullShare} Gout m d)

/-- @main on device `d`'s TensorCore: the one call, from the three arrays; the arguments kept, the result gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (iLoc d) = m (iLoc d) ∧ s'.mem.mem (xLoc d) = m (xLoc d) ∧ s'.mem.mem (oLoc d) = Gout m d

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (iLoc c) = m (iLoc c) ∧ r.2.mem (xLoc c) = m (xLoc c) ∧ r.2.mem (oLoc c) = Gout m c

/-- Every weakly fair execution of the device's threads terminates, nothing faulting, with the result at the gathered
    rows and the arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KIC.lean ====
/-
  The embedding lookup on the SparseCore, part one: the program as the launch theorem sees it, the ghost
  state, the pieces of the arrays each vector subcore works on, and what the handshakes carry.

  Thirty-two vector subcores (two SparseCores of sixteen) each own 512 consecutive entries of the index
  vector: subcore `s` of SparseCore `c` is worker `2 s + c`, and its entries start at `512 (2 s + c)`.
  A worker copies its entries into its own index scratch, gathers the table rows `100000 + idx` into its
  row scratch in four chunks of 128 rows, and copies each chunk out to the same 128 rows of the result.
  The table is only read: every worker holds a share of it, cut further into four pieces, one per gather.
  The result after the run is `out[r, :] = table[100000 + idx[r], :]` (`Gout`).
-/
import proofs.«219932_g11020886081826_week1_w3_745_20_alg».proof.Defs
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic
import Idealize.ShloMosaic.Lib.ValueIdx
import proofs.«219932_g11020886081826_week1_w3_745_20_alg».proof.Proof.Gen.KernelIdeal
import proofs.«219932_g11020886081826_week1_w3_745_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table, the index vector and the result, as locations of device `d`. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S200001x128 EltTy.f32)
local notation "iV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-! ## A worker's pieces, spelt as the kernel slices them -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The worker's 512 entries of the index vector. -/
abbrev iSl (L : grid0.Coords) : Memref sig .scVector .hbm S512 .i32 :=
  (iV).slice (Rect.unit (s := S16384) (k0_off1 L) S512.size (k0_off1_inb L)) (fun _ => rfl)
abbrev iSet (L : grid0.Coords) : Finset S16384.Idx := (iSl L).view.set

/-- The worker's four chunks of 128 rows of the result. -/
abbrev oSl0 (L : grid0.Coords) : Memref sig .scVector .hbm S128x128 .f32 :=
  (oV).slice (Rect.unit (s := S16384x128) (k0_off2 L 0#32) S128x128.size (k0_off2_inb L 0)) (fun _ => rfl)
abbrev oSl1 (L : grid0.Coords) : Memref sig .scVector .hbm S128x128 .f32 :=
  (oV).slice (Rect.unit (s := S16384x128) (k0_off2 L 128#32) S128x128.size (k0_off2_inb L 1)) (fun _ => rfl)
abbrev oSl2 (L : grid0.Coords) : Memref sig .scVector .hbm S128x128 .f32 :=
  (oV).slice (Rect.unit (s := S16384x128) (k0_off2 L 256#32) S128x128.size (k0_off2_inb L 2)) (fun _ => rfl)
abbrev oSl3 (L : grid0.Coords) : Memref sig .scVector .hbm S128x128 .f32 :=
  (oV).slice (Rect.unit (s := S16384x128) (k0_off2 L 384#32) S128x128.size (k0_off2_inb L 3)) (fun _ => rfl)
def oSet (L : grid0.Coords) : Fin 4 → Finset S16384x128.Idx
  | 0 => (oSl0 L).view.set | 1 => (oSl1 L).view.set | 2 => (oSl2 L).view.set | 3 => (oSl3 L).view.set

/-- The rows of the table the gathers read from: `100000 …` to the end, as the kernel slices them (twice). -/
abbrev xUser : Memref sig .scVector .hbm S100001x128 .f32 :=
  ((xV).slice (Rect.unit (s := S200001x128) ![100000, 0] S100001x128.size inb_S200001x128_S100001x128_100000_0) (fun _ => rfl)).slice
    (Rect.unit (s := S100001x128) ![0, 0] S100001x128.size inb_S100001x128_S100001x128_0_0) (fun _ => rfl)

/-- The four chunks of the row scratch and of the index scratch. -/
abbrev rSl0 : Memref sig .scVector .vmem S128x128 .f32 := (rV).slice (Rect.unit (s := S512x128) ![0, 0] S128x128.size inb_S512x128_S128x128_0_0) (fun _ => rfl)
abbrev rSl1 : Memref sig .scVector .vmem S128x128 .f32 := (rV).slice (Rect.unit (s := S512x128) ![128, 0] S128x128.size inb_S512x128_S128x128_128_0) (fun _ => rfl)
abbrev rSl2 : Memref sig .scVector .vmem S128x128 .f32 := (rV).slice (Rect.unit (s := S512x128) ![256, 0] S128x128.size inb_S512x128_S128x128_256_0) (fun _ => rfl)
abbrev rSl3 : Memref sig .scVector .vmem S128x128 .f32 := (rV).slice (Rect.unit (s := S512x128) ![384, 0] S128x128.size inb_S512x128_S128x128_384_0) (fun _ => rfl)
abbrev sSl0 : Memref sig .scVector .vmem S128 .i32 := (sV).slice (Rect.unit (s := S512) ![0] S128.size inb_S512_S128_0) (fun _ => rfl)
abbrev sSl1 : Memref sig .scVector .vmem S128 .i32 := (sV).slice (Rect.unit (s := S512) ![128] S128.size inb_S512_S128_128) (fun _ => rfl)
abbrev sSl2 : Memref sig .scVector .vmem S128 .i32 := (sV).slice (Rect.unit (s := S512) ![256] S128.size inb_S512_S128_256) (fun _ => rfl)
abbrev sSl3 : Memref sig .scVector .vmem S128 .i32 := (sV).slice (Rect.unit (s := S512) ![384] S128.size inb_S512_S128_384) (fun _ => rfl)

/-! ## Shares of the table -/

/-- SparseCore `c`'s share, subcore `s`'s piece of it, and that piece cut once more for the four gathers. -/
abbrev xqC (c : Fin 2) : PosShare TreeShare := pieceOf fullShare 2 (by decide) c
abbrev xqT (c : Fin 2) (s : Fin 16) : PosShare TreeShare := pieceOf (xqC c) 16 (by decide) s
abbrev xqG (c : Fin 2) (s : Fin 16) (r : Fin 4) : PosShare TreeShare := pieceOf (xqT c s) 4 (by decide) r

variable [FloatOps F]

/-! ## The result -/

/-- Row `r` of the result is row `100000 + idx[r]` of the table (the row number cut off at the table's last row, so
    that the function is total; under the precondition nothing is cut off). -/
def Gout (d : Dev nD) : Buf (Elt F) (oLoc d) := fun i =>
  m (xLoc d) (ValueIdx.ix2 (n0 := 200001) (n1 := 128) (⟨min (100000 + (m (iLoc d) (ValueIdx.ix1 (n := 16384) (i 0))).toNat) 200000, by omega⟩ : Fin 200001) (i 1))

/-! ## What the handshakes carry -/

abbrev xPts (d : Dev nD) (q : PosShare TreeShare) : sProp 𝕄 := xLoc d ↦{q} m (xLoc d)
abbrev iPtsL (d : Dev nD) (L : grid0.Coords) : sProp 𝕄 := iLoc d ↦[iSet L]{fullShare} m (iLoc d)
abbrev oPtsL (d : Dev nD) (L : grid0.Coords) (f : Buf (Elt F) (oLoc d)) : sProp 𝕄 :=
  iprop((oLoc d ↦[oSet L 0]{fullShare} f) ∗ (oLoc d ↦[oSet L 1]{fullShare} f) ∗ (oLoc d ↦[oSet L 2]{fullShare} f) ∗ (oLoc d ↦[oSet L 3]{fullShare} f))

/-- The grid point of task `i` of SparseCore `c` of the call. -/
abbrev LK (c : Fin 2) (i : Fin 16) : grid0.Coords := coordsV ⟨c.val, c.isLt⟩ ⟨i.val, i.isLt⟩

/-- What a task takes and brings back: its entries of the index vector, its piece of the table's share, its rows of
    the result — at the launch contents before, at `Gout` after. -/
abbrev goT (d : Dev nD) (c : Fin 2) (i : Fin 16) (f : Buf (Elt F) (oLoc d)) : sProp 𝕄 :=
  iprop(iPtsL m d (LK c i) ∗ xPts m d (xqT c i) ∗ oPtsL d (LK c i) f)

def P : (K (F := F)).Pay (nD := nD) (Val := Elt F) (Name := ℕ) (U := UU) where
  st := fun q d c => match q with | 0 => iprop((bigSep Finset.univ fun i : Fin 16 => iPtsL m d (LK (Fin.cast nCore_zero c) i)) ∗ xPts m d (xqC (Fin.cast nCore_zero c))
    ∗ (bigSep Finset.univ fun i : Fin 16 => oPtsL d (LK (Fin.cast nCore_zero c) i) (m (oLoc d))))
  dn := fun q d c => match q with | 0 => iprop((bigSep Finset.univ fun i : Fin 16 => iPtsL m d (LK (Fin.cast nCore_zero c) i)) ∗ xPts m d (xqC (Fin.cast nCore_zero c))
    ∗ (bigSep Finset.univ fun i : Fin 16 => oPtsL d (LK (Fin.cast nCore_zero c) i) (Gout m d)))
  go := fun q d c i => match q with | 0 => goT m d (Fin.cast nCore_zero c) (Fin.cast nSub_zero i) (m (oLoc d))
  td := fun q d c i => match q with | 0 => goT m d (Fin.cast nCore_zero c) (Fin.cast nSub_zero i) (Gout m d)
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## Small facts about big separating conjunctions -/

omit m ρ in
theorem bigSep_univ_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- What the proof asks of the launch memory: every index names one of the first 100000 user rows. -/
def PreOK : Prop := ∀ (d : Dev nD) (j : S16384.Idx), (m (iLoc d) j).toNat < 100000

end Cert.Proof.KI

end
-- ==== Proof.KIS.lean ====
/-
  The embedding lookup on the SparseCore: which elements each piece holds, and that the pieces tile their arrays.

  Every piece is a block of consecutive rows of a whole array: an index lies in it exactly when its row number lies in
  the block's range. A row number determines its block (the quotient by the block height, refined by the worker's
  number `2 s + c`), so blocks of different numbers are disjoint and every index lies in its own block: the four
  chunks tile each scratch, the thirty-two workers' entries tile the index vector, and the hundred and twenty-eight
  chunks tile the result.
-/
import proofs.«219932_g11020886081826_week1_w3_745_20_alg».proof.Proof.KIC

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S200001x128 EltTy.f32)
local notation "iV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-! ## Membership in a block of rows -/

/-- An index lies in a unit-stride block of a whole array exactly when each coordinate lies in the block's range. -/
theorem mem_slice_whole {κ : Kind} (b : Ref sig κ) (off size : Fin b.ty.shape.rank → ℕ)
    (inb : ∀ a, off a + size a ≤ b.ty.shape.size a) (hst) (i : b.ty.shape.Idx) :
    i ∈ ((Memref.whole b).slice (Rect.unit (s := b.ty.shape) off size inb) hst).view.set ↔ ∀ a, off a ≤ i a ∧ (i a : ℕ) < off a + size a := by
  show i ∈ ((View.whole b).slice (Rect.unit (s := b.ty.shape) off size inb)).set ↔ _
  rw [View.set_slice_whole]
  exact Rect.mem_set_unit

/-- A family of sets, one per key, each index in the set of its own key: the sets cover everything. -/
theorem biUnion_univ_of_key {ι T : Type} [Fintype ι] [DecidableEq ι] [Fintype T] [DecidableEq T] (Kf : T → Finset ι) (key : ι → T)
    (h : ∀ i, i ∈ Kf (key i)) : Finset.univ.biUnion Kf = Finset.univ :=
  Finset.eq_univ_iff_forall.mpr fun i => Finset.mem_biUnion.mpr ⟨key i, Finset.mem_univ _, h i⟩

/-- A family of sets each of whose members has the set's key: the sets are pairwise disjoint. -/
theorem disjoint_of_key {ι T : Type} [DecidableEq ι] (Kf : T → Finset ι) (key : ι → T) (s : Finset T)
    (h : ∀ t i, i ∈ Kf t → key i = t) : ∀ t ∈ s, ∀ t' ∈ s, t ≠ t' → Disjoint (Kf t) (Kf t') :=
  fun t _ t' _ hne => Finset.disjoint_left.mpr fun i hi hi' => hne ((h t i hi).symm.trans (h t' i hi'))

/-! ## The four chunks of the index scratch -/

def sChunk : Fin 4 → Finset S512.Idx
  | 0 => (sSl0).view.set | 1 => (sSl1).view.set | 2 => (sSl2).view.set | 3 => (sSl3).view.set

theorem mem_sChunk (r : Fin 4) (i : S512.Idx) : i ∈ sChunk r ↔ 128 * r.val ≤ (i 0).val ∧ (i 0).val < 128 * r.val + 128 := by
  have key : ∀ (o : ℕ) (inb : ∀ a, (![o] : Fin 1 → ℕ) a + S128.size a ≤ S512.size a) (hst),
      i ∈ ((sV).slice (Rect.unit (s := S512) ![o] S128.size inb) hst).view.set ↔ o ≤ (i 0).val ∧ (i 0).val < o + 128 := fun o inb hst =>
    (mem_slice_whole cc0_scratch0 ![o] S128.size inb hst i).trans
      ⟨fun h => h 0, fun h a => match a with | ⟨0, _⟩ => h⟩
  match r with
  | 0 => exact key 0 _ _
  | 1 => exact key 128 _ _
  | 2 => exact key 256 _ _
  | 3 => exact key 384 _ _

def sKey (i : S512.Idx) : Fin 4 := ⟨(i 0).val / 128, by have h : (i 0).val < 512 := (i 0).isLt; omega⟩

theorem sChunk_cover : Finset.univ.biUnion sChunk = Finset.univ :=
  biUnion_univ_of_key sChunk sKey fun i => (mem_sChunk _ i).mpr (by
    have h : (i 0).val < 512 := (i 0).isLt
    show 128 * ((i 0).val / 128) ≤ (i 0).val ∧ (i 0).val < 128 * ((i 0).val / 128) + 128
    omega)
theorem sChunk_disj : ∀ t ∈ (Finset.univ : Finset (Fin 4)), ∀ t' ∈ (Finset.univ : Finset (Fin 4)), t ≠ t' → Disjoint (sChunk t) (sChunk t') :=
  disjoint_of_key sChunk sKey _ fun t i hi => by
    have := (mem_sChunk t i).mp hi
    refine Fin.ext ?_
    show (i 0).val / 128 = t.val
    omega

/-! ## The four chunks of the row scratch -/

def rChunk : Fin 4 → Finset S512x128.Idx
  | 0 => (rSl0).view.set | 1 => (rSl1).view.set | 2 => (rSl2).view.set | 3 => (rSl3).view.set

theorem mem_rChunk (r : Fin 4) (i : S512x128.Idx) : i ∈ rChunk r ↔ 128 * r.val ≤ (i 0).val ∧ (i 0).val < 128 * r.val + 128 := by
  have key : ∀ (o : ℕ) (inb : ∀ a, (![o, 0] : Fin 2 → ℕ) a + S128x128.size a ≤ S512x128.size a) (hst),
      i ∈ ((rV).slice (Rect.unit (s := S512x128) ![o, 0] S128x128.size inb) hst).view.set ↔ o ≤ (i 0).val ∧ (i 0).val < o + 128 := fun o inb hst =>
    (mem_slice_whole cc0_scratch1 ![o, 0] S128x128.size inb hst i).trans
      ⟨fun h => h 0, fun h a => match a with
        | ⟨0, _⟩ => h
        | ⟨1, _⟩ => show (0 : ℕ) ≤ (i 1).val ∧ (i 1).val < 0 + 128 from ⟨Nat.zero_le _, by have h1 : (i 1).val < 128 := (i 1).isLt; omega⟩⟩
  match r with
  | 0 => exact key 0 _ _
  | 1 => exact key 128 _ _
  | 2 => exact key 256 _ _
  | 3 => exact key 384 _ _

def rKey (i : S512x128.Idx) : Fin 4 := ⟨(i 0).val / 128, by have h : (i 0).val < 512 := (i 0).isLt; omega⟩

theorem rChunk_cover : Finset.univ.biUnion rChunk = Finset.univ :=
  biUnion_univ_of_key rChunk rKey fun i => (mem_rChunk _ i).mpr (by
    have h : (i 0).val < 512 := (i 0).isLt
    show 128 * ((i 0).val / 128) ≤ (i 0).val ∧ (i 0).val < 128 * ((i 0).val / 128) + 128
    omega)
theorem rChunk_disj : ∀ t ∈ (Finset.univ : Finset (Fin 4)), ∀ t' ∈ (Finset.univ : Finset (Fin 4)), t ≠ t' → Disjoint (rChunk t) (rChunk t') :=
  disjoint_of_key rChunk rKey _ fun t i hi => by
    have := (mem_rChunk t i).mp hi
    refine Fin.ext ?_
    show (i 0).val / 128 = t.val
    omega

/-! ## The workers' entries of the index vector -/

theorem mem_iSet (L : grid0.Coords) (i : S16384.Idx) :
    i ∈ iSet L ↔ 1024 * (L 1).val + 512 * (L 0).val ≤ (i 0).val ∧ (i 0).val < 1024 * (L 1).val + 512 * (L 0).val + 512 := by
  refine (mem_slice_whole main_arg1_scv (k0_off1 L) S512.size (k0_off1_inb L) _ i).trans ?_
  rw [k0_off1_eq]
  exact ⟨fun h => h 0, fun h a => match a with | ⟨0, _⟩ => h⟩

/-- The chunk of the result that starts at row `1024 s + 512 c + o`. -/
theorem mem_oSl (L : grid0.Coords) (w : BitVec 32) (o : ℕ) (inb) (hst) (e : k0_off2 L w = ![1024 * (L 1).val + 512 * (L 0).val + o, 0]) (i : S16384x128.Idx) :
    i ∈ ((oV).slice (Rect.unit (s := S16384x128) (k0_off2 L w) S128x128.size inb) hst).view.set
      ↔ 1024 * (L 1).val + 512 * (L 0).val + o ≤ (i 0).val ∧ (i 0).val < 1024 * (L 1).val + 512 * (L 0).val + o + 128 := by
  refine (mem_slice_whole main_v0_scv (k0_off2 L w) S128x128.size inb hst i).trans ?_
  rw [e]
  exact ⟨fun h => h 0, fun h a => match a with
    | ⟨0, _⟩ => h
    | ⟨1, _⟩ => show (0 : ℕ) ≤ (i 1).val ∧ (i 1).val < 0 + 128 from ⟨Nat.zero_le _, by have h1 : (i 1).val < 128 := (i 1).isLt; omega⟩⟩

theorem mem_oSet (L : grid0.Coords) (r : Fin 4) (i : S16384x128.Idx) :
    i ∈ oSet L r ↔ 1024 * (L 1).val + 512 * (L 0).val + 128 * r.val ≤ (i 0).val ∧ (i 0).val < 1024 * (L 1).val + 512 * (L 0).val + 128 * r.val + 128 := by
  match r with
  | 0 => exact mem_oSl L 0#32 (128 * 0) _ _ (k0_off2_eq L 0) i
  | 1 => exact mem_oSl L 128#32 (128 * 1) _ _ (k0_off2_eq L 1) i
  | 2 => exact mem_oSl L 256#32 (128 * 2) _ _ (k0_off2_eq L 2) i
  | 3 => exact mem_oSl L 384#32 (128 * 3) _ _ (k0_off2_eq L 3) i

omit F in
theorem LK_val (c : Fin 2) (s : Fin 16) : ((LK c s) 0).val = c.val ∧ ((LK c s) 1).val = s.val := ⟨rfl, rfl⟩

def iKey (i : S16384.Idx) : Fin 2 × Fin 16 :=
  (⟨(i 0).val % 1024 / 512, by omega⟩, ⟨(i 0).val / 1024, by have h : (i 0).val < 16384 := (i 0).isLt; omega⟩)

theorem iSet_cover : Finset.univ.biUnion (fun t : Fin 2 × Fin 16 => iSet (LK t.1 t.2)) = Finset.univ :=
  biUnion_univ_of_key _ iKey fun i => (mem_iSet _ i).mpr (by
    have h : (i 0).val < 16384 := (i 0).isLt
    show 1024 * ((i 0).val / 1024) + 512 * ((i 0).val % 1024 / 512) ≤ (i 0).val
      ∧ (i 0).val < 1024 * ((i 0).val / 1024) + 512 * ((i 0).val % 1024 / 512) + 512
    omega)
theorem iSet_disj : ∀ t ∈ (Finset.univ : Finset (Fin 2 × Fin 16)), ∀ t' ∈ (Finset.univ : Finset (Fin 2 × Fin 16)), t ≠ t' →
    Disjoint (iSet (LK t.1 t.2)) (iSet (LK t'.1 t'.2)) :=
  disjoint_of_key (fun t : Fin 2 × Fin 16 => iSet (LK t.1 t.2)) iKey _ fun t i hi => by
    have h := (mem_iSet _ i).mp hi
    have hc : ((LK t.1 t.2) 0).val = t.1.val := rfl
    have hs : ((LK t.1 t.2) 1).val = t.2.val := rfl
    rw [hc, hs] at h
    have h1 := t.1.isLt
    refine Prod.ext (Fin.ext ?_) (Fin.ext ?_)
    · show (i 0).val % 1024 / 512 = t.1.val
      omega
    · show (i 0).val / 1024 = t.2.val
      omega

/-! ## The workers' chunks of the result -/

def oKey (i : S16384x128.Idx) : (Fin 2 × Fin 16) × Fin 4 :=
  ((⟨(i 0).val % 1024 / 512, by omega⟩, ⟨(i 0).val / 1024, by have h : (i 0).val < 16384 := (i 0).isLt; omega⟩), ⟨(i 0).val % 512 / 128, by omega⟩)

theorem oSet_cover : Finset.univ.biUnion (fun t : (Fin 2 × Fin 16) × Fin 4 => oSet (LK t.1.1 t.1.2) t.2) = Finset.univ :=
  biUnion_univ_of_key _ oKey fun i => (mem_oSet _ _ i).mpr (by
    have h : (i 0).val < 16384 := (i 0).isLt
    show 1024 * ((i 0).val / 1024) + 512 * ((i 0).val % 1024 / 512) + 128 * ((i 0).val % 512 / 128) ≤ (i 0).val
      ∧ (i 0).val < 1024 * ((i 0).val / 1024) + 512 * ((i 0).val % 1024 / 512) + 128 * ((i 0).val % 512 / 128) + 128
    omega)
theorem oSet_disj : ∀ t ∈ (Finset.univ : Finset ((Fin 2 × Fin 16) × Fin 4)), ∀ t' ∈ (Finset.univ : Finset ((Fin 2 × Fin 16) × Fin 4)), t ≠ t' →
    Disjoint (oSet (LK t.1.1 t.1.2) t.2) (oSet (LK t'.1.1 t'.1.2) t'.2) :=
  disjoint_of_key (fun t : (Fin 2 × Fin 16) × Fin 4 => oSet (LK t.1.1 t.1.2) t.2) oKey _ fun t i hi => by
    have h := (mem_oSet _ _ i).mp hi
    have hc : ((LK t.1.1 t.1.2) 0).val = t.1.1.val := rfl
    have hs : ((LK t.1.1 t.1.2) 1).val = t.1.2.val := rfl
    rw [hc, hs] at h
    have h1 := t.1.1.isLt
    have h2 := t.2.isLt
    refine Prod.ext (Prod.ext (Fin.ext ?_) (Fin.ext ?_)) (Fin.ext ?_)
    · show (i 0).val % 1024 / 512 = t.1.1.val
      omega
    · show (i 0).val / 1024 = t.1.2.val
      omega
    · show (i 0).val % 512 / 128 = t.2.val
      omega

/-! ## A scratch buffer as its four chunks -/

theorem sV_split (d : Dev nD) (c : Fin τ.nSC) (i : Fin τ.nSub) (f : Buf (Elt F) ((V d c i).loc cc0_scratch0)) :
    ((V d c i).loc cc0_scratch0 ↦{fullShare} f : sProp 𝕄)
      = iprop(((sSl0).view.loc (V d c i) ↦[(sSl0).view.set]{fullShare} f) ∗ ((sSl1).view.loc (V d c i) ↦[(sSl1).view.set]{fullShare} f)
          ∗ ((sSl2).view.loc (V d c i) ↦[(sSl2).view.set]{fullShare} f) ∗ ((sSl3).view.loc (V d c i) ↦[(sSl3).view.set]{fullShare} f)) := by
  have h : ((V d c i).loc cc0_scratch0 ↦[Finset.univ.biUnion sChunk]{fullShare} f : sProp 𝕄) = _ :=
    pointsTo_biUnion (ℓ := (V d c i).loc cc0_scratch0) (q := fullShare) (f := f) Finset.univ sChunk sChunk_disj
  rw [sChunk_cover] at h
  exact h.trans (bigSep_univ_four _)

theorem rV_split (d : Dev nD) (c : Fin τ.nSC) (i : Fin τ.nSub) (f : Buf (Elt F) ((V d c i).loc cc0_scratch1)) :
    ((V d c i).loc cc0_scratch1 ↦{fullShare} f : sProp 𝕄)
      = iprop(((rSl0).view.loc (V d c i) ↦[(rSl0).view.set]{fullShare} f) ∗ ((rSl1).view.loc (V d c i) ↦[(rSl1).view.set]{fullShare} f)
          ∗ ((rSl2).view.loc (V d c i) ↦[(rSl2).view.set]{fullShare} f) ∗ ((rSl3).view.loc (V d c i) ↦[(rSl3).view.set]{fullShare} f)) := by
  have h : ((V d c i).loc cc0_scratch1 ↦[Finset.univ.biUnion rChunk]{fullShare} f : sProp 𝕄) = _ :=
    pointsTo_biUnion (ℓ := (V d c i).loc cc0_scratch1) (q := fullShare) (f := f) Finset.univ rChunk rChunk_disj
  rw [rChunk_cover] at h
  exact h.trans (bigSep_univ_four _)

/-- Four chunks held at four contents are the whole scratch at some contents. -/
theorem rV_join (d : Dev nD) (c : Fin τ.nSC) (i : Fin τ.nSub) (f0 f1 f2 f3 : Buf (Elt F) ((V d c i).loc cc0_scratch1)) :
    iprop(((rSl0).view.loc (V d c i) ↦[(rSl0).view.set]{fullShare} f0) ∗ ((rSl1).view.loc (V d c i) ↦[(rSl1).view.set]{fullShare} f1)
          ∗ ((rSl2).view.loc (V d c i) ↦[(rSl2).view.set]{fullShare} f2) ∗ ((rSl3).view.loc (V d c i) ↦[(rSl3).view.set]{fullShare} f3))
      ⊢ (iprop(∃ f, (V d c i).loc cc0_scratch1 ↦{fullShare} f) : sProp 𝕄) := by
  let fs : Fin 4 → Buf (Elt F) ((V d c i).loc cc0_scratch1) := fun | 0 => f0 | 1 => f1 | 2 => f2 | 3 => f3
  have hj : (bigSep Finset.univ (fun t => ((V d c i).loc cc0_scratch1 ↦[rChunk t]{fullShare} fs t : sProp 𝕄))) ⊢ _ :=
    pointsTo_biUnion_join (ℓ := (V d c i).loc cc0_scratch1) (q := fullShare) Finset.univ rChunk fs f0 rChunk_disj
  rw [rChunk_cover, bigSep_univ_four] at hj
  have h2 : (iprop(∃ g, ⌜∀ t ∈ (Finset.univ : Finset (Fin 4)), ∀ j ∈ rChunk t, g j = fs t j⌝ ∗ (V d c i).loc cc0_scratch1 ↦{fullShare} g) : sProp 𝕄)
      ⊢ iprop(∃ f, (V d c i).loc cc0_scratch1 ↦{fullShare} f) := by
    iintro ⟨%g, -, Hg⟩
    iexists g; iexact Hg
  exact hj.trans h2

end Cert.Proof.KI

end
-- ==== Proof.KIV.lean ====
/-
  The embedding lookup on the SparseCore: what the buffers hold along a worker's task, and why the result is right.

  After the fetch the index scratch holds the worker's 512 indices. Gather `r` then writes, at row `y` of chunk `r` of
  the row scratch, the row of the user block that index `128 r + y` names: the table's row `100000 +` that index.
  The copy out writes the chunk to the worker's rows `128 r …` of the result. Row `ρ` of the result is one of the
  worker's exactly when `ρ = 1024 s + 512 c + 128 r + y` for a chunk `r` and `y < 128`, and the index the worker
  fetched at `128 r + y` is the index vector's at `ρ`: so row `ρ` of the result ends as row `100000 + idx[ρ]` of the
  table, the specification `Gout`.
-/
import proofs.«219932_g11020886081826_week1_w3_745_20_alg».proof.Proof.KIS

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S200001x128 EltTy.f32)
local notation "iV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-! ## What the scratches hold -/

/-- After the fetch the index scratch holds the worker's 512 entries of the index vector. -/
def Sidx : Buf (Elt F) ((V d (cV L) (jV L)).loc cc0_scratch0) := (iSl L).view.read (Elt F) (m (iLoc d))

theorem idx_landed (fs : Buf (Elt F) ((V d (cV L) (jV L)).loc cc0_scratch0)) (pay : S512.Idx → Elt F .i32)
    (hpay : pay = (iSl L).view.read (Elt F) (m (iLoc d))) :
    View.write (Elt F) (sV).view fs pay Finset.univ = Sidx m d L := by
  subst hpay; exact View.write_whole_univ _ _ _

theorem Sidx_apply (j : S512.Idx) : Sidx m d L j = m (iLoc d) ((iSl L).view.emb j) :=
  (View.read_apply _ _).trans (cast_eq _ _)

/-! ## Coordinates of an element of a block of rows -/

/-- An element of a unit-stride block of a whole array sits at the block's offset plus its own coordinate. -/
theorem emb_slice_whole {κ : Kind} (b : Ref sig κ) (off size : Fin b.ty.shape.rank → ℕ)
    (inb : ∀ a, off a + size a ≤ b.ty.shape.size a) (hst) (y : (Rect.unit (s := b.ty.shape) off size inb).shape.Idx) (a : Fin b.ty.shape.rank) :
    ((((Memref.whole b).slice (Rect.unit (s := b.ty.shape) off size inb) hst).view.emb y) a : ℕ) = off a + (y a : ℕ) := by
  show ((Rect.unit (s := b.ty.shape) off size inb).emb y a : ℕ) = _
  rw [Rect.emb_apply]
  simp only [Rect.off_unit, Rect.stride_unit, Nat.one_mul]

/-- A buffer read through a view at `y` is the buffer at the element `y` names. -/
theorem read_eq {κ : Kind} {sp : Space} {s : Shape} {e : EltTy} (v : View sig κ sp s e) (g : v.ty.Contents (Elt F)) (y : s.Idx)
    (h : (Elt F) v.ty.elt = (Elt F) e) : HEq (v.read (Elt F) g y) (g (v.emb y)) := by
  rw [View.read_apply]; exact cast_heq _ _

/-- What is read back through a view right after one write of the whole view is what was written. -/
theorem read_writes_whole {κ : Kind} {sp : Space} {s : Shape} {e : EltTy} (v : View sig κ sp s e) (f : v.ty.Contents (Elt F))
    (w : s.Idx → Elt F e) (y : s.Idx) : v.read (Elt F) (v.writes (Elt F) f [⟨Rect.whole s, w⟩]) y = w y := by
  have h := View.read_writes_cons_emb v f (Rect.whole s) w [] y
  rwa [Rect.emb_whole_apply] at h

/-! ## The gathered payload, the chunk of the row scratch, the chunk of the result -/

/-- What gather `r` writes: for each row of the chunk, the row of the user block its index names. -/
abbrev GPo (o : ℕ) (inbS : ∀ a, (![o] : Fin 1 → ℕ) a + S128.size a ≤ S512.size a) (hS : ∀ a, (Rect.unit (s := S512) ![o] S128.size inbS).stride a = 1)
    (hin : ∀ x, (((sV).slice (Rect.unit (s := S512) ![o] S128.size inbS) hS).view.read (Elt F) (Sidx m d L) x).toNat < 100001) :
    S128x128.Idx → Elt F .f32 :=
  SparseCore.gatherPayload gathers_S100001x128_S128x128 ((xUser).view.read (Elt F) (m (xLoc d)))
    (SparseCore.rows (((sV).slice (Rect.unit (s := S512) ![o] S128.size inbS) hS).view.read (Elt F) (Sidx m d L)) rfl hin)

/-- The user block's element `k` is the table's at row `100000 + k₀`. -/
theorem xUser_emb (k : S100001x128.Idx) (a : Fin 2) : (((xUser).view.emb k) a : ℕ) = (![100000, 0] : Fin 2 → ℕ) a + (k a : ℕ) := by
  show ((Rect.unit (s := S200001x128) ![100000, 0] S100001x128.size inb_S200001x128_S100001x128_100000_0).emb
      ((Rect.unit (s := S100001x128) ![0, 0] S100001x128.size inb_S100001x128_S100001x128_0_0).emb k) a : ℕ) = _
  rw [Rect.emb_apply, Rect.emb_apply]
  simp only [Rect.off_unit, Rect.stride_unit, Nat.one_mul]
  match a with
  | ⟨0, _⟩ => show 100000 + (0 + (k 0 : ℕ)) = 100000 + (k 0 : ℕ); omega
  | ⟨1, _⟩ => show 0 + (0 + (k 1 : ℕ)) = 0 + (k 1 : ℕ); omega

/-- Chunk `o / 128` of the result, once gathered and copied out, agrees with the specification on the chunk's rows. -/
theorem out_val (o : ℕ) (w : BitVec 32)
    (inbS : ∀ a, (![o] : Fin 1 → ℕ) a + S128.size a ≤ S512.size a) (hS : ∀ a, (Rect.unit (s := S512) ![o] S128.size inbS).stride a = 1)
    (inbR : ∀ a, (![o, 0] : Fin 2 → ℕ) a + S128x128.size a ≤ S512x128.size a) (hR : ∀ a, (Rect.unit (s := S512x128) ![o, 0] S128x128.size inbR).stride a = 1)
    (inbO : ∀ a, (k0_off2 L w) a + S128x128.size a ≤ S16384x128.size a) (hO : ∀ a, (Rect.unit (s := S16384x128) (k0_off2 L w) S128x128.size inbO).stride a = 1)
    (e : k0_off2 L w = ![1024 * (L 1).val + 512 * (L 0).val + o, 0])
    (fr : Buf (Elt F) ((V d (cV L) (jV L)).loc cc0_scratch1))
    (hin : ∀ x, (((sV).slice (Rect.unit (s := S512) ![o] S128.size inbS) hS).view.read (Elt F) (Sidx m d L) x).toNat < 100001) :
    ∀ i ∈ ((oV).slice (Rect.unit (s := S16384x128) (k0_off2 L w) S128x128.size inbO) hO).view.set,
      ((oV).slice (Rect.unit (s := S16384x128) (k0_off2 L w) S128x128.size inbO) hO).view.writes (Elt F) (m (oLoc d))
        [⟨Rect.whole S128x128, ReadAs.same.apply (((rV).slice (Rect.unit (s := S512x128) ![o, 0] S128x128.size inbR) hR).view.read (Elt F)
          (((rV).slice (Rect.unit (s := S512x128) ![o, 0] S128x128.size inbR) hR).view.writes (Elt F) fr
            [⟨Rect.whole S128x128, GPo m d L o inbS hS hin⟩]))⟩] i
      = Gout m d i := by
  intro i hi
  have hb := (mem_oSl L w o inbO hO e i).mp hi
  have h1 : (i 1).val < 128 := (i 1).isLt
  have hL0 : (L 0).val < 2 := (L 0).isLt
  have hL1 : (L 1).val < 16 := (L 1).isLt
  -- the element's coordinates inside the chunk
  have hy0 : (i 0).val - (1024 * (L 1).val + 512 * (L 0).val + o) < 128 := by omega
  let y : S128x128.Idx := ValueIdx.ix2 (n0 := 128) (n1 := 128) ⟨(i 0).val - (1024 * (L 1).val + 512 * (L 0).val + o), hy0⟩ ⟨(i 1).val, h1⟩
  have hy : ((oV).slice (Rect.unit (s := S16384x128) (k0_off2 L w) S128x128.size inbO) hO).view.emb y = i := by
    funext a; refine Fin.ext ?_
    refine (emb_slice_whole main_v0_scv (k0_off2 L w) S128x128.size inbO hO y a).trans ?_
    have e0 : (k0_off2 L w) 0 = 1024 * (L 1).val + 512 * (L 0).val + o := congrFun e 0
    have e1 : (k0_off2 L w) 1 = 0 := congrFun e 1
    match a with
    | ⟨0, _⟩ => show (k0_off2 L w) 0 + ((i 0).val - (1024 * (L 1).val + 512 * (L 0).val + o)) = (i 0).val; omega
    | ⟨1, _⟩ => show (k0_off2 L w) 1 + (i 1).val = (i 1).val; omega
  -- what the chunk of the result holds there: the gathered payload at `y`
  have hlhs : ((oV).slice (Rect.unit (s := S16384x128) (k0_off2 L w) S128x128.size inbO) hO).view.writes (Elt F) (m (oLoc d))
        [⟨Rect.whole S128x128, ReadAs.same.apply (((rV).slice (Rect.unit (s := S512x128) ![o, 0] S128x128.size inbR) hR).view.read (Elt F)
          (((rV).slice (Rect.unit (s := S512x128) ![o, 0] S128x128.size inbR) hR).view.writes (Elt F) fr
            [⟨Rect.whole S128x128, GPo m d L o inbS hS hin⟩]))⟩] i
      = GPo m d L o inbS hS hin y := by
    conv_lhs => rw [← hy]
    refine ((View.read_apply _ _).trans (cast_eq _ _)).symm.trans ?_
    refine (read_writes_whole _ _ _ y).trans ?_
    show ((rV).slice (Rect.unit (s := S512x128) ![o, 0] S128x128.size inbR) hR).view.read (Elt F) _ y = _
    exact read_writes_whole _ _ _ y
  rw [hlhs]
  -- the payload there: the table at the row the fetched index names
  show (xUser).view.read (Elt F) (m (xLoc d)) (gathers_S100001x128_S128x128.idx
      (SparseCore.rows (((sV).slice (Rect.unit (s := S512) ![o] S128.size inbS) hS).view.read (Elt F) (Sidx m d L)) rfl hin) y) = _
  refine ((View.read_apply _ _).trans (cast_eq _ _)).trans ?_
  unfold Gout
  -- the index the worker fetched for this row is the index vector's at the result's row
  let z : S128.Idx := S128.rowMajor.symm ((y gathers_S100001x128_S128x128.axis').cast (rfl : S128x128.size gathers_S100001x128_S128x128.axis' = S128.numel))
  have hz : (z 0).val = (i 0).val - (1024 * (L 1).val + 512 * (L 0).val + o) := by
    have h := Shape.rowMajor_val_one (d := ![128]) z
    rw [show S128.rowMajor z = _ from Equiv.apply_symm_apply _ _] at h
    exact h.symm
  have hidx : (iSl L).view.emb (((sV).slice (Rect.unit (s := S512) ![o] S128.size inbS) hS).view.emb z) = ValueIdx.ix1 (n := 16384) (i 0) := by
    have f0 : (k0_off1 L) 0 = 1024 * (L 1).val + 512 * (L 0).val := congrFun (k0_off1_eq L) 0
    have hz' : ((((sV).slice (Rect.unit (s := S512) ![o] S128.size inbS) hS).view.emb z) 0 : ℕ) = o + (z 0).val :=
      emb_slice_whole cc0_scratch0 ![o] S128.size inbS hS z 0
    funext a; refine Fin.ext ?_
    refine (emb_slice_whole main_arg1_scv (k0_off1 L) S512.size (k0_off1_inb L) _ _ a).trans ?_
    match a with
    | ⟨0, _⟩ =>
      show (k0_off1 L) 0 + ((((sV).slice (Rect.unit (s := S512) ![o] S128.size inbS) hS).view.emb z) 0 : ℕ) = (i 0).val
      omega
  have hrow : ((SparseCore.rows (((sV).slice (Rect.unit (s := S512) ![o] S128.size inbS) hS).view.read (Elt F) (Sidx m d L)) rfl hin)
      (y gathers_S100001x128_S128x128.axis')).val = (m (iLoc d) (ValueIdx.ix1 (n := 16384) (i 0))).toNat := by
    show ((((sV).slice (Rect.unit (s := S512) ![o] S128.size inbS) hS).view.read (Elt F) (Sidx m d L)) z).toNat = _
    rw [show ((sV).slice (Rect.unit (s := S512) ![o] S128.size inbS) hS).view.read (Elt F) (Sidx m d L) z
        = Sidx m d L (((sV).slice (Rect.unit (s := S512) ![o] S128.size inbS) hS).view.emb z) from (View.read_apply _ _).trans (cast_eq _ _),
      Sidx_apply, hidx]
  have hlt : (m (iLoc d) (ValueIdx.ix1 (n := 16384) (i 0))).toNat < 100001 := by
    rw [← hrow]; exact (SparseCore.rows _ rfl hin _).isLt
  congr 1
  funext a; refine Fin.ext ?_
  refine (xUser_emb _ a).trans ?_
  match a with
  | ⟨0, _⟩ =>
    show 100000 + ((gathers_S100001x128_S128x128.idx _ y) gathers_S100001x128_S128x128.axis : ℕ) = min (100000 + (m (iLoc d) (ValueIdx.ix1 (n := 16384) (i 0))).toNat) 200000
    rw [Shape.Gathers.idx_axis]
    refine (congrArg (fun t : ℕ => 100000 + t) hrow).trans ?_
    omega
  | ⟨1, _⟩ =>
    show 0 + ((gathers_S100001x128_S128x128.idx _ y) (1 : Fin 2) : ℕ) = (i 1).val
    refine (congrArg (fun t : ℕ => 0 + t) (Shape.Gathers.idx_of_ne gathers_S100001x128_S128x128 _ y (1 : Fin 2) (by decide))).trans ?_
    show 0 + (i 1).val = (i 1).val
    omega

end Tile

end Cert.Proof.KI

end
-- ==== Proof.KIB.lean ====
/-
  The embedding lookup on the SparseCore, part two: one worker's task, run once at a symbolic grid point.

  The worker copies its 512 indices in and waits; starts four gathers, each on a semaphore of its own,
  each reading its own 128 indices and writing its own 128 rows of the row scratch; then, chunk by chunk,
  waits for a gather and starts the copy of that chunk to the result, all four copies on one semaphore;
  and last waits four times on that semaphore. No buffer a pending transfer reads or writes is touched
  before the transfer's wait: the four chunks are disjoint, and a chunk's copy out starts after its gather
  has landed. The four copies out are a counted batch: only the last wait returns the chunks.
-/
import proofs.«219932_g11020886081826_week1_w3_745_20_alg».proof.Proof.KIV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S200001x128 EltTy.f32)
local notation "iV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)
variable [FloatOps F]

section Tile

variable (d : Dev nD) (L : grid0.Coords)

/-! ## What the copies out deliver -/

/-- Chunk 0 of the row scratch after its gather, and chunk 0 of the result after the copy out. -/
abbrev X0 (fr : Buf (Elt F) ((V d (cV L) (jV L)).loc cc0_scratch1)) (h : (∀ x, ((sSl0).view.read (Elt F) (Sidx m d L) x).toNat < 100001)) : Buf (Elt F) ((V d (cV L) (jV L)).loc cc0_scratch1) :=
  (rSl0).view.writes (Elt F) fr [⟨Rect.whole S128x128, GPo m d L 0 inb_S512_S128_0 (fun _ => rfl) h⟩]
abbrev landedX0 (fr : Buf (Elt F) ((V d (cV L) (jV L)).loc cc0_scratch1)) (h : (∀ x, ((sSl0).view.read (Elt F) (Sidx m d L) x).toNat < 100001)) : Buf (Elt F) (oLoc d) :=
  (oSl0 L).view.writes (Elt F) (m (oLoc d)) [⟨Rect.whole S128x128, ReadAs.same.apply ((rSl0).view.read (Elt F) (X0 m d L fr h))⟩]
/-- Chunk 1 of the row scratch after its gather, and chunk 1 of the result after the copy out. -/
abbrev X1 (fr : Buf (Elt F) ((V d (cV L) (jV L)).loc cc0_scratch1)) (h : (∀ x, ((sSl1).view.read (Elt F) (Sidx m d L) x).toNat < 100001)) : Buf (Elt F) ((V d (cV L) (jV L)).loc cc0_scratch1) :=
  (rSl1).view.writes (Elt F) fr [⟨Rect.whole S128x128, GPo m d L 128 inb_S512_S128_128 (fun _ => rfl) h⟩]
abbrev landedX1 (fr : Buf (Elt F) ((V d (cV L) (jV L)).loc cc0_scratch1)) (h : (∀ x, ((sSl1).view.read (Elt F) (Sidx m d L) x).toNat < 100001)) : Buf (Elt F) (oLoc d) :=
  (oSl1 L).view.writes (Elt F) (m (oLoc d)) [⟨Rect.whole S128x128, ReadAs.same.apply ((rSl1).view.read (Elt F) (X1 m d L fr h))⟩]
/-- Chunk 2 of the row scratch after its gather, and chunk 2 of the result after the copy out. -/
abbrev X2 (fr : Buf (Elt F) ((V d (cV L) (jV L)).loc cc0_scratch1)) (h : (∀ x, ((sSl2).view.read (Elt F) (Sidx m d L) x).toNat < 100001)) : Buf (Elt F) ((V d (cV L) (jV L)).loc cc0_scratch1) :=
  (rSl2).view.writes (Elt F) fr [⟨Rect.whole S128x128, GPo m d L 256 inb_S512_S128_256 (fun _ => rfl) h⟩]
abbrev landedX2 (fr : Buf (Elt F) ((V d (cV L) (jV L)).loc cc0_scratch1)) (h : (∀ x, ((sSl2).view.read (Elt F) (Sidx m d L) x).toNat < 100001)) : Buf (Elt F) (oLoc d) :=
  (oSl2 L).view.writes (Elt F) (m (oLoc d)) [⟨Rect.whole S128x128, ReadAs.same.apply ((rSl2).view.read (Elt F) (X2 m d L fr h))⟩]
/-- Chunk 3 of the row scratch after its gather, and chunk 3 of the result after the copy out. -/
abbrev X3 (fr : Buf (Elt F) ((V d (cV L) (jV L)).loc cc0_scratch1)) (h : (∀ x, ((sSl3).view.read (Elt F) (Sidx m d L) x).toNat < 100001)) : Buf (Elt F) ((V d (cV L) (jV L)).loc cc0_scratch1) :=
  (rSl3).view.writes (Elt F) fr [⟨Rect.whole S128x128, GPo m d L 384 inb_S512_S128_384 (fun _ => rfl) h⟩]
abbrev landedX3 (fr : Buf (Elt F) ((V d (cV L) (jV L)).loc cc0_scratch1)) (h : (∀ x, ((sSl3).view.read (Elt F) (Sidx m d L) x).toNat < 100001)) : Buf (Elt F) (oLoc d) :=
  (oSl3 L).view.writes (Elt F) (m (oLoc d)) [⟨Rect.whole S128x128, ReadAs.same.apply ((rSl3).view.read (Elt F) (X3 m d L fr h))⟩]

/-- The four copies out, a batch on one semaphore: copy `r` delivers chunk `r` of the result written and chunk `r` of the
    row scratch back. -/
def deliv (fr : Buf (Elt F) ((V d (cV L) (jV L)).loc cc0_scratch1)) (h0 : (∀ x, ((sSl0).view.read (Elt F) (Sidx m d L) x).toNat < 100001)) (h1 : (∀ x, ((sSl1).view.read (Elt F) (Sidx m d L) x).toNat < 100001)) (h2 : (∀ x, ((sSl2).view.read (Elt F) (Sidx m d L) x).toNat < 100001)) (h3 : (∀ x, ((sSl3).view.read (Elt F) (Sidx m d L) x).toNat < 100001)) : Fin 4 → sProp 𝕄
  | 0 => iprop(((oSl0 L).view.loc (V d (cV L) (jV L)) ↦[(oSl0 L).view.set]{fullShare} landedX0 m d L fr h0) ∗ ((rSl0).view.loc (V d (cV L) (jV L)) ↦[(rSl0).view.set]{fullShare} X0 m d L fr h0))
  | 1 => iprop(((oSl1 L).view.loc (V d (cV L) (jV L)) ↦[(oSl1 L).view.set]{fullShare} landedX1 m d L fr h1) ∗ ((rSl1).view.loc (V d (cV L) (jV L)) ↦[(rSl1).view.set]{fullShare} X1 m d L fr h1))
  | 2 => iprop(((oSl2 L).view.loc (V d (cV L) (jV L)) ↦[(oSl2 L).view.set]{fullShare} landedX2 m d L fr h2) ∗ ((rSl2).view.loc (V d (cV L) (jV L)) ↦[(rSl2).view.set]{fullShare} X2 m d L fr h2))
  | 3 => iprop(((oSl3 L).view.loc (V d (cV L) (jV L)) ↦[(oSl3 L).view.set]{fullShare} landedX3 m d L fr h3) ∗ ((rSl3).view.loc (V d (cV L) (jV L)) ↦[(rSl3).view.set]{fullShare} X3 m d L fr h3))

instance deliv_storable (fr : Buf (Elt F) ((V d (cV L) (jV L)).loc cc0_scratch1)) (h0 : (∀ x, ((sSl0).view.read (Elt F) (Sidx m d L) x).toNat < 100001)) (h1 : (∀ x, ((sSl1).view.read (Elt F) (Sidx m d L) x).toNat < 100001)) (h2 : (∀ x, ((sSl2).view.read (Elt F) (Sidx m d L) x).toNat < 100001)) (h3 : (∀ x, ((sSl3).view.read (Elt F) (Sidx m d L) x).toNat < 100001)) (r : Fin 4) :
    BI.Storable (upEmb : UEmb _ 𝕄) (deliv m d L fr h0 h1 h2 h3 r) := by
  match r with
  | 0 => unfold deliv; infer_instance
  | 1 => unfold deliv; infer_instance
  | 2 => unfold deliv; infer_instance
  | 3 => unfold deliv; infer_instance

/-- One chunk's credit. -/
abbrev NB : ℕ := (oSl0 L).view.amount (SemLoc.dma (sig := sig) cc0_scratch6.sem)

/-- Every fetched index names a row of the user block: the gathers' offsets are in range. -/
theorem hin0 (hpre : PreOK m) : ∀ x, ((sSl0).view.read (Elt F) (Sidx m d L) x).toNat < 100001 := fun x => by
  rw [show (sSl0).view.read (Elt F) (Sidx m d L) x = Sidx m d L ((sSl0).view.emb x) from (View.read_apply _ _).trans (cast_eq _ _), Sidx_apply]
  exact Nat.lt_succ_of_lt (hpre d _)
theorem hin1 (hpre : PreOK m) : ∀ x, ((sSl1).view.read (Elt F) (Sidx m d L) x).toNat < 100001 := fun x => by
  rw [show (sSl1).view.read (Elt F) (Sidx m d L) x = Sidx m d L ((sSl1).view.emb x) from (View.read_apply _ _).trans (cast_eq _ _), Sidx_apply]
  exact Nat.lt_succ_of_lt (hpre d _)
theorem hin2 (hpre : PreOK m) : ∀ x, ((sSl2).view.read (Elt F) (Sidx m d L) x).toNat < 100001 := fun x => by
  rw [show (sSl2).view.read (Elt F) (Sidx m d L) x = Sidx m d L ((sSl2).view.emb x) from (View.read_apply _ _).trans (cast_eq _ _), Sidx_apply]
  exact Nat.lt_succ_of_lt (hpre d _)
theorem hin3 (hpre : PreOK m) : ∀ x, ((sSl3).view.read (Elt F) (Sidx m d L) x).toNat < 100001 := fun x => by
  rw [show (sSl3).view.read (Elt F) (Sidx m d L) x = Sidx m d L ((sSl3).view.emb x) from (View.read_apply _ _).trans (cast_eq _ _), Sidx_apply]
  exact Nat.lt_succ_of_lt (hpre d _)

/-- What each delivered chunk of the result holds is the specification on the chunk's rows. -/
theorem out_val0 (fr : Buf (Elt F) ((V d (cV L) (jV L)).loc cc0_scratch1)) (h : (∀ x, ((sSl0).view.read (Elt F) (Sidx m d L) x).toNat < 100001)) :
    ∀ i ∈ (oSl0 L).view.set, landedX0 m d L fr h i = Gout m d i :=
  out_val m d L 0 0#32 inb_S512_S128_0 (fun _ => rfl) inb_S512x128_S128x128_0_0 (fun _ => rfl) (k0_off2_inb L 0) (fun _ => rfl) (k0_off2_eq L 0) fr h
theorem out_val1 (fr : Buf (Elt F) ((V d (cV L) (jV L)).loc cc0_scratch1)) (h : (∀ x, ((sSl1).view.read (Elt F) (Sidx m d L) x).toNat < 100001)) :
    ∀ i ∈ (oSl1 L).view.set, landedX1 m d L fr h i = Gout m d i :=
  out_val m d L 128 128#32 inb_S512_S128_128 (fun _ => rfl) inb_S512x128_S128x128_128_0 (fun _ => rfl) (k0_off2_inb L 1) (fun _ => rfl) (k0_off2_eq L 1) fr h
theorem out_val2 (fr : Buf (Elt F) ((V d (cV L) (jV L)).loc cc0_scratch1)) (h : (∀ x, ((sSl2).view.read (Elt F) (Sidx m d L) x).toNat < 100001)) :
    ∀ i ∈ (oSl2 L).view.set, landedX2 m d L fr h i = Gout m d i :=
  out_val m d L 256 256#32 inb_S512_S128_256 (fun _ => rfl) inb_S512x128_S128x128_256_0 (fun _ => rfl) (k0_off2_inb L 2) (fun _ => rfl) (k0_off2_eq L 2) fr h
theorem out_val3 (fr : Buf (Elt F) ((V d (cV L) (jV L)).loc cc0_scratch1)) (h : (∀ x, ((sSl3).view.read (Elt F) (Sidx m d L) x).toNat < 100001)) :
    ∀ i ∈ (oSl3 L).view.set, landedX3 m d L fr h i = Gout m d i :=
  out_val m d L 384 384#32 inb_S512_S128_384 (fun _ => rfl) inb_S512x128_S128x128_384_0 (fun _ => rfl) (k0_off2_inb L 3) (fun _ => rfl) (k0_off2_eq L 3) fr h

/-- A delivered chunk of the result, restated at the specification. -/
theorem out_pts0 (fr : Buf (Elt F) ((V d (cV L) (jV L)).loc cc0_scratch1)) (h : (∀ x, ((sSl0).view.read (Elt F) (Sidx m d L) x).toNat < 100001)) :
    ((oSl0 L).view.loc (V d (cV L) (jV L)) ↦[(oSl0 L).view.set]{fullShare} landedX0 m d L fr h : sProp 𝕄)
      = (oLoc d ↦[(oSl0 L).view.set]{fullShare} Gout m d) := pointsTo_congr (out_val0 m d L fr h)
theorem out_pts1 (fr : Buf (Elt F) ((V d (cV L) (jV L)).loc cc0_scratch1)) (h : (∀ x, ((sSl1).view.read (Elt F) (Sidx m d L) x).toNat < 100001)) :
    ((oSl1 L).view.loc (V d (cV L) (jV L)) ↦[(oSl1 L).view.set]{fullShare} landedX1 m d L fr h : sProp 𝕄)
      = (oLoc d ↦[(oSl1 L).view.set]{fullShare} Gout m d) := pointsTo_congr (out_val1 m d L fr h)
theorem out_pts2 (fr : Buf (Elt F) ((V d (cV L) (jV L)).loc cc0_scratch1)) (h : (∀ x, ((sSl2).view.read (Elt F) (Sidx m d L) x).toNat < 100001)) :
    ((oSl2 L).view.loc (V d (cV L) (jV L)) ↦[(oSl2 L).view.set]{fullShare} landedX2 m d L fr h : sProp 𝕄)
      = (oLoc d ↦[(oSl2 L).view.set]{fullShare} Gout m d) := pointsTo_congr (out_val2 m d L fr h)
theorem out_pts3 (fr : Buf (Elt F) ((V d (cV L) (jV L)).loc cc0_scratch1)) (h : (∀ x, ((sSl3).view.read (Elt F) (Sidx m d L) x).toNat < 100001)) :
    ((oSl3 L).view.loc (V d (cV L) (jV L)) ↦[(oSl3 L).view.set]{fullShare} landedX3 m d L fr h : sProp 𝕄)
      = (oLoc d ↦[(oSl3 L).view.set]{fullShare} Gout m d) := pointsTo_congr (out_val3 m d L fr h)

omit [FloatOps F] in
/-- The six DMA semaphores the kernel names are among the subcore's own cells: they are them, and the rest. -/
theorem ownSems0_V :
    (ownSems0 (V d (cV L) (jV L)) : sProp 𝕄)
      = iprop(semVal (V d (cV L) (jV L), SemLoc.dma cc0_scratch2.sem) 0
          ∗ semVal (V d (cV L) (jV L), SemLoc.dma cc0_scratch3.sem) 0
          ∗ semVal (V d (cV L) (jV L), SemLoc.dma cc0_scratch4.sem) 0
          ∗ semVal (V d (cV L) (jV L), SemLoc.dma cc0_scratch5.sem) 0
          ∗ semVal (V d (cV L) (jV L), SemLoc.dma cc0_scratch6.sem) 0
          ∗ semVal (V d (cV L) (jV L), SemLoc.dma cc0_scoped0.sem) 0
          ∗ bigSep (((((((ownCells (V d (cV L) (jV L))).erase (V d (cV L) (jV L), SemLoc.dma cc0_scratch2.sem)).erase (V d (cV L) (jV L), SemLoc.dma cc0_scratch3.sem)).erase (V d (cV L) (jV L), SemLoc.dma cc0_scratch4.sem)).erase (V d (cV L) (jV L), SemLoc.dma cc0_scratch5.sem)).erase (V d (cV L) (jV L), SemLoc.dma cc0_scratch6.sem)).erase (V d (cV L) (jV L), SemLoc.dma cc0_scoped0.sem)) fun g => semVal g 0) := by
  unfold SparseCore.Cfg.ownSems0
  rw [SparseCore.bigSep_erase' ((mem_ownCells (g := (V d (cV L) (jV L), SemLoc.dma cc0_scratch2.sem))).mpr ⟨rfl, by show (SemLoc.dma cc0_scratch2.sem : SemLoc sig).isScoped .scVector = true; decide⟩),
    SparseCore.bigSep_erase' (Finset.mem_erase.mpr ⟨fun e => absurd (Prod.mk.inj e).2 (by decide), (mem_ownCells (g := (V d (cV L) (jV L), SemLoc.dma cc0_scratch3.sem))).mpr ⟨rfl, by show (SemLoc.dma cc0_scratch3.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (V d (cV L) (jV L), SemLoc.dma cc0_scratch4.sem))).mpr ⟨rfl, by show (SemLoc.dma cc0_scratch4.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scratch5.sem))).mpr ⟨rfl, by show (SemLoc.dma cc0_scratch5.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scratch6.sem))).mpr ⟨rfl, by show (SemLoc.dma cc0_scratch6.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (V d (cV L) (jV L), SemLoc.dma cc0_scoped0.sem))).mpr ⟨rfl, by show (SemLoc.dma cc0_scoped0.sem : SemLoc sig).isScoped .scVector = true; decide⟩⟩⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxRecDepth 131072 in
set_option maxHeartbeats 4000000 in
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ (iPtsL m d L ∗ xPts m d q ∗ oPtsL d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) iV (Memref.isWhole_whole _) oV (Memref.isWhole_whole _)
            sV (Memref.isWhole_whole _) rV (Memref.isWhole_whole _) cc0_scratch2 cc0_scratch3 cc0_scratch4 cc0_scratch5 cc0_scratch6 cc0_scoped0)
          fun _ => iprop((iPtsL m d L ∗ xPts m d q ∗ oPtsL d L (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems0_V, ownBufs_V]
  unfold oPtsL oSet
  iintro ⟨#Hlv, -, ⟨Hi, Hx, Ho0, Ho1, Ho2, Ho3⟩, ⟨⟨%fs, Hs⟩, ⟨%fr, Hr⟩, Hbufs⟩, ⟨Hc2, Hc3, Hc4, Hc5, Hc6, Hc0, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv

  -- the arrays as the subcore's memrefs address them
  ihave Hi' := (Entails.of_eq (show (iLoc d ↦[iSet L]{fullShare} m (iLoc d) : sProp 𝕄)
      = ((iSl L).view.loc (V d (cV L) (jV L)) ↦[(iSl L).view.set]{fullShare} m (iLoc d)) from rfl)) $$ Hi
  ihave Ho0' := (Entails.of_eq (show (oLoc d ↦[(oSl0 L).view.set]{fullShare} m (oLoc d) : sProp 𝕄)
      = ((oSl0 L).view.loc (V d (cV L) (jV L)) ↦[(oSl0 L).view.set]{fullShare} m (oLoc d)) from rfl)) $$ Ho0
  ihave Ho1' := (Entails.of_eq (show (oLoc d ↦[(oSl1 L).view.set]{fullShare} m (oLoc d) : sProp 𝕄)
      = ((oSl1 L).view.loc (V d (cV L) (jV L)) ↦[(oSl1 L).view.set]{fullShare} m (oLoc d)) from rfl)) $$ Ho1
  ihave Ho2' := (Entails.of_eq (show (oLoc d ↦[(oSl2 L).view.set]{fullShare} m (oLoc d) : sProp 𝕄)
      = ((oSl2 L).view.loc (V d (cV L) (jV L)) ↦[(oSl2 L).view.set]{fullShare} m (oLoc d)) from rfl)) $$ Ho2
  ihave Ho3' := (Entails.of_eq (show (oLoc d ↦[(oSl3 L).view.set]{fullShare} m (oLoc d) : sProp 𝕄)
      = ((oSl3 L).view.loc (V d (cV L) (jV L)) ↦[(oSl3 L).view.set]{fullShare} m (oLoc d)) from rfl)) $$ Ho3
  ihave Hs' := (Entails.of_eq (show ((V d (cV L) (jV L)).loc cc0_scratch0 ↦{fullShare} fs : sProp 𝕄)
      = ((sV).view.loc (V d (cV L) (jV L)) ↦{fullShare} fs) from rfl)) $$ Hs
  ihave Hr4 := (Entails.of_eq (rV_split (F := F) d (cV L) (jV L) fr)) $$ Hr
  icases Hr4 with ⟨Hr0, Hr1, Hr2, Hr3⟩
  -- the table's share as four read tokens, one per gather's semaphore, and the remainder
  ihave Hxs := (Transfers.pointsTo_toks_split q 4) $$ Hx
  icases Hxs with ⟨Hxd, Hxt⟩
  ihave Hxt' := (Entails.of_eq (bigSep_univ_four (fun i : Fin 4 => (xLoc d ↦{Transfers.shareTok q 4 i} m (xLoc d) : sProp 𝕄)))) $$ Hxt
  icases Hxt' with ⟨Hx0, Hx1, Hx2, Hx3⟩
  ihave Hx0' := (Entails.of_eq (show (xLoc d ↦{Transfers.shareTok q 4 0} m (xLoc d) : sProp 𝕄)
      = ((xV).view.loc (V d (cV L) (jV L)) ↦{Transfers.shareTok q 4 0} m (xLoc d)) from rfl)) $$ Hx0
  ihave Hx1' := (Entails.of_eq (show (xLoc d ↦{Transfers.shareTok q 4 1} m (xLoc d) : sProp 𝕄)
      = ((xV).view.loc (V d (cV L) (jV L)) ↦{Transfers.shareTok q 4 1} m (xLoc d)) from rfl)) $$ Hx1
  ihave Hx2' := (Entails.of_eq (show (xLoc d ↦{Transfers.shareTok q 4 2} m (xLoc d) : sProp 𝕄)
      = ((xV).view.loc (V d (cV L) (jV L)) ↦{Transfers.shareTok q 4 2} m (xLoc d)) from rfl)) $$ Hx2
  ihave Hx3' := (Entails.of_eq (show (xLoc d ↦{Transfers.shareTok q 4 3} m (xLoc d) : sProp 𝕄)
      = ((xV).view.loc (V d (cV L) (jV L)) ↦{Transfers.shareTok q 4 3} m (xLoc d)) from rfl)) $$ Hx3
  sl_exec
  -- the index scratch holds the worker's entries; as its four chunks
  have hS := idx_landed m d L fs (tile_body.sl.dma0 m d L) rfl
  ihave Hs2 := (Entails.of_eq (show ((sV).view.loc (V d (cV L) (jV L)) ↦{fullShare} View.write (Elt F) (sV).view fs (tile_body.sl.dma0 m d L) Finset.univ : sProp 𝕄)
      = ((V d (cV L) (jV L)).loc cc0_scratch0 ↦{fullShare} Sidx m d L) by rw [hS])) $$ Hs'
  ihave Hs4 := (Entails.of_eq (sV_split (F := F) d (cV L) (jV L) (Sidx m d L))) $$ Hs2
  icases Hs4 with ⟨Hs0, Hs1, Hs2, Hs3⟩
  have hi0 := hin0 m d L hpre
  have hi1 := hin1 m d L hpre
  have hi2 := hin2 m d L hpre
  have hi3 := hin3 m d L hpre
  imod (Transfers.batch_alloc' (Lvl := ℕ) (countersEmb (U := UU)) (V d (cV L) (jV L)) (default : HIx 1) (NB L) (deliv m d L fr hi0 hi1 hi2 hi3) (sm := .dma cc0_scratch6.sem) (E := Set.univ)) $$ Hc6 with HB
  sl_exec
  sl_step
  -- the result's chunks at the specification
  ihave Ho0g := (Entails.of_eq (out_pts0 m d L fr hi0)) $$ HB_dst0
  ihave Ho1g := (Entails.of_eq (out_pts1 m d L fr hi1)) $$ HB_dst1
  ihave Ho2g := (Entails.of_eq (out_pts2 m d L fr hi2)) $$ HB_dst2
  ihave Ho3g := (Entails.of_eq (out_pts3 m d L fr hi3)) $$ HB_dst3
  -- the table's share whole again
  ihave Hx := (Transfers.pointsTo_toks_join (ℓ := xLoc d) (S := Finset.univ) (f := m (xLoc d)) q 4) $$ [Hxd Hx0' Hx1' Hx2' Hx3']
  · isplitl [Hxd]; · iexact Hxd
    iapply (Entails.of_eq (bigSep_univ_four (fun i : Fin 4 => (xLoc d ↦{Transfers.shareTok q 4 i} m (xLoc d) : sProp 𝕄))).symm)
    isplitl [Hx0']; · iexact Hx0'
    isplitl [Hx1']; · iexact Hx1'
    isplitl [Hx2']; · iexact Hx2'
    iexact Hx3'
  -- the index scratch whole again; the row scratch whole at some contents
  ihave Hs := (Entails.of_eq (sV_split (F := F) d (cV L) (jV L) (Sidx m d L)).symm) $$ [Hs0 Hs1 Hs2 Hs3]
  · isplitl [Hs0]; · iexact Hs0
    isplitl [Hs1]; · iexact Hs1
    isplitl [Hs2]; · iexact Hs2
    iexact Hs3
  ihave Hr := (rV_join (F := F) d (cV L) (jV L) (X0 m d L fr hi0) (X1 m d L fr hi1) (X2 m d L fr hi2) (X3 m d L fr hi3)) $$ [HB_src0 HB_src1 HB_src2 HB_src3]
  · isplitl [HB_src0]; · iexact HB_src0
    isplitl [HB_src1]; · iexact HB_src1
    isplitl [HB_src2]; · iexact HB_src2
    iexact HB_src3
  isplitl [Hi' Hx Ho0g Ho1g Ho2g Ho3g]
  · isplitl [Hi']; · iexact Hi'
    isplitl [Hx]; · iexact Hx
    isplitl [Ho0g]; · iexact Ho0g
    isplitl [Ho1g]; · iexact Ho1g
    isplitl [Ho2g]; · iexact Ho2g
    iexact Ho3g
  isplitl [Hs Hr Hbufs]
  · isplitl [Hs]; · iexists _; iexact Hs
    isplitl [Hr]; · iexact Hr
    iexact Hbufs
  isplitl [Hc2 Hc3 Hc4 Hc5 HB Hc0 Hsems]
  · isplitl [Hc2]; · iexact Hc2
    isplitl [Hc3]; · iexact Hc3
    isplitl [Hc4]; · iexact Hc4
    isplitl [Hc5]; · iexact Hc5
    isplitl [HB]; · iexact HB
    isplitl [Hc0]; · iexact Hc0
    iexact Hsems
  iexists _; isplitr
  swap; · iexact HO
  ipureintro; intro p hp
  repeat (rcases Finset.mem_insert.mp hp with hp | hp; · exact .inr (hp ▸ rfl))
  exact .inl hp

end Tile

end Cert.Proof.KI

end
-- ==== Proof.KIL.lean ====
/-
  The embedding lookup on the SparseCore, part three: from one worker's task to the whole program's run.

  The launch theorem takes: every task proved (the task of part two at the grid point of subcore `i` of SparseCore
  `c`); how a SparseCore's operands split among its sixteen tasks (its share of the table cut in sixteen; its
  entries of the index vector and its rows of the result are the tasks' own, side by side); @main on the TensorCore
  (one call: the three arrays split for the two SparseCores, handed over, taken back and joined again, the result now
  the gathered rows); and how the final memory reads the claim.
-/
import proofs.«219932_g11020886081826_week1_w3_745_20_alg».proof.Proof.KIB

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S200001x128 EltTy.f32)
local notation "iV" => (Memref.whole Cert.KernelIdeal.main_arg1_scv : Memref Cert.KernelIdeal.sig Kind.scVector Space.hbm Cert.KernelIdeal.S16384 EltTy.i32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)
variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_gather (coordsV c s)
          xV (Memref.isWhole_whole _) iV (Memref.isWhole_whole _) oV (Memref.isWhole_whole _)
          sV (Memref.isWhole_whole _) rV (Memref.isWhole_whole _) cc0_scratch2 cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre (xqT (Fin.cast nCore_zero c) (Fin.cast nSub_zero i)) O W hO).trans
    (wp_mono frame _ _ fun _ => obl_post)

/-! ## A SparseCore's operands among its sixteen tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sixteen tasks' operands, side by side, are the SparseCore's: its entries and rows are the tasks' own, its share
    of the table the sixteen pieces. -/
theorem go_eq (d : Dev nD) (c' : Fin 2) (f : Buf (Elt F) (oLoc d)) :
    (bigSep Finset.univ fun i : Fin ((K (F := F)).nSub 0) => goT m d c' (Fin.cast nSub_zero i) f)
      = iprop((bigSep Finset.univ fun i : Fin 16 => iPtsL m d (LK c' i)) ∗ xPts m d (xqC c') ∗ (bigSep Finset.univ fun i : Fin 16 => oPtsL d (LK c' i) f)) := by
  have hX : (bigSep Finset.univ fun i : Fin 16 => xPts m d (xqT c' i)) = xPts m d (xqC c') :=
    (pointsTo_piecesOf (ℓ := xLoc d) Finset.univ (m (xLoc d)) (o := 16) (by decide) (xqC c')).symm
  rw [bigSep_tasks (F := F) (fun i => goT m d c' i f),
    show (fun i : Fin 16 => goT m d c' i f) = fun i => iprop(iPtsL m d (LK c' i) ∗ (xPts m d (xqT c' i) ∗ oPtsL d (LK c' i) f)) from rfl,
    bigSep_sep' Finset.univ (fun i : Fin 16 => iPtsL m d (LK c' i)) (fun i => iprop(xPts m d (xqT c' i) ∗ oPtsL d (LK c' i) f)),
    bigSep_sep' Finset.univ (fun i : Fin 16 => xPts m d (xqT c' i)) (fun i => oPtsL d (LK c' i) f), hX]

theorem vecSplit : (K (F := F)).VecSplit' (P m) 0 := by
  intro d c
  show iprop((bigSep Finset.univ fun i : Fin 16 => iPtsL m d (LK (Fin.cast nCore_zero c) i)) ∗ xPts m d (xqC (Fin.cast nCore_zero c))
      ∗ (bigSep Finset.univ fun i : Fin 16 => oPtsL d (LK (Fin.cast nCore_zero c) i) (m (oLoc d))))
    ⊢ |={Set.univ}=> iprop(
      (bigSep Finset.univ fun i : Fin ((K (F := F)).nSub 0) => goT m d (Fin.cast nCore_zero c) (Fin.cast nSub_zero i) (m (oLoc d)))
      ∗ ((bigSep Finset.univ fun i : Fin ((K (F := F)).nSub 0) => goT m d (Fin.cast nCore_zero c) (Fin.cast nSub_zero i) (Gout m d))
          -∗ iprop((bigSep Finset.univ fun i : Fin 16 => iPtsL m d (LK (Fin.cast nCore_zero c) i)) ∗ xPts m d (xqC (Fin.cast nCore_zero c))
              ∗ (bigSep Finset.univ fun i : Fin 16 => oPtsL d (LK (Fin.cast nCore_zero c) i) (Gout m d)))))
  rw [go_eq, go_eq]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, whole, as the two SparseCores' parts -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The index vector whole is the thirty-two workers' entries. -/
theorem iPts_split (d : Dev nD) (f : Buf (Elt F) (iLoc d)) :
    (iLoc d ↦{fullShare} f : sProp 𝕄)
      = bigSep Finset.univ fun c : Fin 2 => bigSep Finset.univ fun s : Fin 16 => iLoc d ↦[iSet (LK c s)]{fullShare} f := by
  have h : (iLoc d ↦[Finset.univ.biUnion (fun t : Fin 2 × Fin 16 => iSet (LK t.1 t.2))]{fullShare} f : sProp 𝕄) = _ :=
    pointsTo_biUnion (ℓ := iLoc d) (q := fullShare) (f := f) Finset.univ (fun t : Fin 2 × Fin 16 => iSet (LK t.1 t.2)) iSet_disj
  rw [iSet_cover] at h
  exact h.trans (bigSep_univ_prod (fun t : Fin 2 × Fin 16 => (iLoc d ↦[iSet (LK t.1 t.2)]{fullShare} f : sProp 𝕄)))

omit [FloatOps F] in
/-- The result whole is the thirty-two workers' four chunks each. -/
theorem oPts_split (d : Dev nD) (f : Buf (Elt F) (oLoc d)) :
    (oLoc d ↦{fullShare} f : sProp 𝕄)
      = bigSep Finset.univ fun c : Fin 2 => bigSep Finset.univ fun s : Fin 16 => oPtsL d (LK c s) f := by
  have h : (oLoc d ↦[Finset.univ.biUnion (fun t : (Fin 2 × Fin 16) × Fin 4 => oSet (LK t.1.1 t.1.2) t.2)]{fullShare} f : sProp 𝕄) = _ :=
    pointsTo_biUnion (ℓ := oLoc d) (q := fullShare) (f := f) Finset.univ (fun t : (Fin 2 × Fin 16) × Fin 4 => oSet (LK t.1.1 t.1.2) t.2) oSet_disj
  rw [oSet_cover] at h
  refine h.trans ?_
  rw [bigSep_univ_prod (fun t : (Fin 2 × Fin 16) × Fin 4 => (oLoc d ↦[oSet (LK t.1.1 t.1.2) t.2]{fullShare} f : sProp 𝕄)),
    bigSep_univ_prod (fun t : Fin 2 × Fin 16 => bigSep Finset.univ fun r : Fin 4 => (oLoc d ↦[oSet (LK t.1 t.2) r]{fullShare} f : sProp 𝕄))]
  refine bigSep_congr fun c _ => bigSep_congr fun s _ => ?_
  exact bigSep_univ_four _

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores is the three arrays whole, and so is what it hands back. -/
theorem st_dn_eq (d : Dev nD) (f : Buf (Elt F) (oLoc d)) :
    (bigSep Finset.univ fun c : Fin ((K (F := F)).nCore 0) =>
        iprop((bigSep Finset.univ fun i : Fin 16 => iPtsL m d (LK (Fin.cast nCore_zero c) i)) ∗ xPts m d (xqC (Fin.cast nCore_zero c))
          ∗ (bigSep Finset.univ fun i : Fin 16 => oPtsL d (LK (Fin.cast nCore_zero c) i) f)))
      = iprop((iLoc d ↦{fullShare} m (iLoc d)) ∗ (xLoc d ↦{fullShare} m (xLoc d)) ∗ oLoc d ↦{fullShare} f) := by
  rw [bigSep_cores (F := F) (fun c => iprop((bigSep Finset.univ fun i : Fin 16 => iPtsL m d (LK c i)) ∗ xPts m d (xqC c)
          ∗ (bigSep Finset.univ fun i : Fin 16 => oPtsL d (LK c i) f))),
    bigSep_sep', bigSep_sep', iPts_split, oPts_split,
    pointsTo_piecesOf (ℓ := xLoc d) Finset.univ (m (xLoc d)) (o := 2) (by decide) fullShare]

theorem st0_eq (d : Dev nD) :
    (bigSep Finset.univ fun c : Fin ((K (F := F)).nCore 0) => (P m).st 0 d c)
      = iprop((iLoc d ↦{fullShare} m (iLoc d)) ∗ (xLoc d ↦{fullShare} m (xLoc d)) ∗ oLoc d ↦{fullShare} m (oLoc d)) := st_dn_eq m d (m (oLoc d))
theorem dn0_eq (d : Dev nD) :
    (bigSep Finset.univ fun c : Fin ((K (F := F)).nCore 0) => (P m).dn 0 d c)
      = iprop((iLoc d ↦{fullShare} m (iLoc d)) ∗ (xLoc d ↦{fullShare} m (xLoc d)) ∗ oLoc d ↦{fullShare} Gout m d) := st_dn_eq m d (Gout m d)

abbrev FIN (d : Dev nD) : sProp 𝕄 := iprop((iLoc d ↦{fullShare} m (iLoc d)) ∗ (xLoc d ↦{fullShare} m (xLoc d)) ∗ oLoc d ↦{fullShare} Gout m d)

/-- @main on device `d`'s TensorCore: the one call, from the three arrays; the arguments kept, the result gathered. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (iLoc d) = m (iLoc d) ∧ s'.mem.mem (xLoc d) = m (xLoc d) ∧ s'.mem.mem (oLoc d) = Gout m d

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (iLoc c) = m (iLoc c) ∧ r.2.mem (xLoc c) = m (xLoc c) ∧ r.2.mem (oLoc c) = Gout m c

/-- Every weakly fair execution of the device's threads terminates, nothing faulting, with the result at the gathered
    rows and the arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.LibAllOnes.lean ====
/-
  A conjunction that comes out true. A one-operand reduce by `and` over one-bit words, started from a true
  initial value, is true at every result index when every element of the operand is true: the fold meets
  only ones. (The converse direction, from a true result to true elements, is the library's.)
-/
import Idealize.ShloMosaic.PureOps
import Idealize.ShloMosaic.PureOps.Reduce

noncomputable section

namespace Cert.LibAllOnes

open Idealize.ShloMosaic

/-- A left fold by `and` from one over a list whose every element is one is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (by simp), show IntOp.andi (1#1 : BitVec 1) 1#1 = 1#1 from by decide]
    exact foldl_andi_one f l fun n hn => h n (List.mem_cons_of_mem _ hn)

/-- A reduce by `and` from a true initial value over an operand that is true everywhere is true everywhere. -/
theorem reduce_andi_of_all {s t u : Shape} {axes : List (Fin s.rank)} (x : s.Idx → BitVec 1) (init : u.Idx → BitVec 1)
    (h : s.ReducesTo axes t) (hu : 0 < u.numel) (j : t.Idx)
    (hi : init (Shape.Idx.first hu) = 1#1) (hx : ∀ i, x i = 1#1) : Host.reduce IntOp.andi x init h hu j = 1#1 := by
  rw [Host.reduce_eq_foldl, hi]
  exact foldl_andi_one x _ fun n _ => hx n

end Cert.LibAllOnes

end
-- ==== Proof.RefRun.lean ====
/-
  The reference's run, read back. The reference slices the user rows `100000 … 199999` out of the table and takes
  rows of the slice at the index vector, jnp.take's way: a negative index is wrapped once, the wrapped index is
  tested against `0 … 99999`, the row is gathered at the index clamped into range, and a row whose index failed the
  test is replaced by NaN. @main and the two outlined functions are one straight line of twenty-five host operations
  over the calls' buffers; every weakly fair execution ends with each buffer at the operations' fold over the launch
  contents, the result buffer at `refOut` of the two arguments.
  Where every index is below 100000 (as an unsigned word: so it is non-negative as a signed one), nothing is wrapped,
  the test passes, nothing is clamped: row `r` of the result is row `100000 + idx[r]` of the table (`refOut_apply`).
-/
import proofs.«219932_g11020886081826_week1_w3_745_20_alg».proof.Defs
import proofs.«219932_g11020886081826_week1_w3_745_20_alg».proof.Proof.Gen.ReferenceIdeal
import proofs.«219932_g11020886081826_week1_w3_745_20_alg».proof.Proof.LibAllOnes
import Idealize.ShloMosaic.Lib.StableHlo.Run
import Idealize.ShloMosaic.Lib.ValueIdx

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the slice, then `_take`'s (with `_where`'s select inline). -/
abbrev ops : List (HloOp τ sig (Elt F)) :=
  [ unary main_arg0 main_v0 ((extractStridedSlice S100000x128 ![100000, 0] · slices_S200001x128_S100000x128_100000_0) : (⟨S200001x128, .f32⟩ : BufTy).Contents (Elt F) → (⟨S100000x128, .f32⟩ : BufTy).Contents (Elt F)),
    TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_v0) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
theorem main_eq (c : Dev nD) : main (F := F) c = seq ops := by
  simp only [main, fn_take.body, fn_where.body, seq, bind_assoc, pure_bind]

/-- The index as jnp.take reads it: wrapped once if negative. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The wrapped index as a column, the gather's start indices. -/
def colIdx (idx : IVec S16384 32) : IVec S16384x1 32 := broadcastInDim S16384x1 ![0] bcast_S16384_S16384x1_0 (wrapIdx idx)

/-- The range test, per row. -/
def okIdx (idx : IVec S16384 32) : IVec S16384 1 :=
  Host.reduce IntOp.andi
    (andi (cmpi .sge (colIdx idx) (broadcastInDim S16384x1 ![] bcast_S_S16384x1 (constantI S_ 32 0#32)))
      (cmpi .sle (colIdx idx) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- What the reference leaves in its result buffer, as a function of the two arguments. -/
def refOut (x : (⟨S200001x128, .f32⟩ : BufTy).Contents (Elt F)) (idx : IVec S16384 32) : (⟨S16384x128, .f32⟩ : BufTy).Contents (Elt F) :=
  select (broadcastInDim S16384x128 ![0] bcast_S16384_S16384x128_0 (okIdx idx))
    (Host.gather gather_S100000x128_S16384x1_S16384x128_1_0_n_n_0_1_1128
      (extractStridedSlice S100000x128 ![100000, 0] x slices_S200001x128_S100000x128_100000_0) (colIdx idx))
    (broadcastInDim S16384x128 ![] bcast_S_S16384x128 (constant (F := F) S_ .f32 0x7FC00000#32))

attribute [local irreducible] Host.reduce Host.gather in
set_option maxRecDepth 8192 in
set_option maxHeartbeats 4000000 in
theorem out_eq (V : Valuation τ sig (Elt F)) :
    after ops V (main_v1 : DevRef τ sig) = refOut (V (main_arg0 : DevRef τ sig)) (V (main_arg1 : DevRef τ sig)) := by
  unfold refOut okIdx colIdx wrapIdx
  after_results_simp
  try rfl

attribute [local irreducible] Host.reduce Host.gather in
set_option maxRecDepth 8192 in
set_option maxHeartbeats 4000000 in
theorem arg0_eq (V : Valuation τ sig (Elt F)) : after ops V (main_arg0 : DevRef τ sig) = V (main_arg0 : DevRef τ sig) := by
  after_results_simp
  try rfl

attribute [local irreducible] Host.reduce Host.gather in
set_option maxRecDepth 8192 in
set_option maxHeartbeats 4000000 in
theorem arg1_eq (V : Valuation τ sig (Elt F)) : after ops V (main_arg1 : DevRef τ sig) = V (main_arg1 : DevRef τ sig) := by
  after_results_simp
  try rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., unary_bufs_sub ..,
    nullary_bufs_sub .., unary_bufs_sub .., ternary_bufs_sub ..⟩

/-- Every weakly fair execution of the reference ends with the result at `refOut` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.RefVal.lean ====
/-
  The reference's result, index by index, where every index is below 100000.

  A word below 100000 is non-negative as a signed word and at most 99999: jnp.take's wrap leaves it, its range test
  passes on every row, the gather's clamp leaves it, and the select keeps the gathered row. The gathered row is row
  `idx` of the slice, which is row `100000 + idx` of the table.
-/
import proofs.«219932_g11020886081826_week1_w3_745_20_alg».proof.Proof.RefRun

noncomputable section

namespace Cert.ReferenceIdeal.RefRun

open Cert.ReferenceIdeal Cert.ReferenceIdeal.Gen Idealize.ShloMosaic Idealize.ShloMosaic.ValueIdx

variable {F : FTy → Type} [FloatOps F]

/-! ## Words below 100000 -/

theorem slt_zero_of_lt {v : BitVec 32} (h : v.toNat < 100000) : IntOp.cmpi .slt v 0#32 = 0#1 := by
  have : v.slt 0#32 = false := by
    simp only [BitVec.slt_eq_decide, BitVec.toInt_eq_toNat_cond, BitVec.toNat_ofNat, Nat.reducePow, Nat.reduceMod, decide_eq_false_iff_not]
    omega
  simp only [IntOp.cmpi, this]; rfl
theorem sge_zero_of_lt {v : BitVec 32} (h : v.toNat < 100000) : IntOp.cmpi .sge v 0#32 = 1#1 := by
  have : (0#32 : BitVec 32).sle v = true := by
    simp only [BitVec.sle_eq_decide, BitVec.toInt_eq_toNat_cond, BitVec.toNat_ofNat, Nat.reducePow, Nat.reduceMod, decide_eq_true_eq]
    omega
  simp only [IntOp.cmpi, this]; rfl
theorem sle_max_of_lt {v : BitVec 32} (h : v.toNat < 100000) : IntOp.cmpi .sle v 99999#32 = 1#1 := by
  have : v.sle 99999#32 = true := by
    simp only [BitVec.sle_eq_decide, BitVec.toInt_eq_toNat_cond, BitVec.toNat_ofNat, Nat.reducePow, Nat.reduceMod, decide_eq_true_eq]
    omega
  simp only [IntOp.cmpi, this]; rfl
theorem toInt_toNat_of_lt {v : BitVec 32} (h : v.toNat < 100000) : v.toInt.toNat = v.toNat := by
  rw [BitVec.toInt_eq_toNat_cond, if_pos (by omega)]; rfl

/-! ## The stages -/

variable (idx : IVec S16384 32) (hidx : ∀ j, (idx j).toNat < 100000)
include hidx

theorem wrapIdx_eq : wrapIdx idx = idx := by
  funext j
  show Scalar.select (IntOp.cmpi .slt (idx j) 0#32) _ (idx j) = idx j
  rw [slt_zero_of_lt (hidx j)]; rfl

theorem colIdx_apply (j : S16384x1.Idx) : colIdx idx j = idx (ix1 (n := 16384) (j 0)) := by
  unfold colIdx; rw [wrapIdx_eq idx hidx]
  show idx _ = idx _
  congr 1; funext a
  match a with
  | ⟨0, _⟩ => rfl

theorem okIdx_apply (j : S16384.Idx) : okIdx idx j = 1#1 := by
  unfold okIdx
  refine Cert.LibAllOnes.reduce_andi_of_all _ _ _ _ j rfl fun i => ?_
  show IntOp.andi (IntOp.cmpi .sge (colIdx idx i) 0#32) (IntOp.cmpi .sle (colIdx idx i) 99999#32) = 1#1
  rw [colIdx_apply idx hidx, sge_zero_of_lt (hidx _), sle_max_of_lt (hidx _)]; rfl

omit hidx in
/-- The gather of whole rows at a column of start indices: row `r` of the result is the operand's row at the start
    index, read signed and clamped to the last row. -/
theorem gather_rows_apply {α : Type} (x : S100000x128.Idx → α) (col : IVec S16384x1 32) (j : S16384x128.Idx) :
    Host.gather gather_S100000x128_S16384x1_S16384x128_1_0_n_n_0_1_1128 x col j
      = x (ix2 (n0 := 100000) (n1 := 128) ⟨min (col (ix2 (n0 := 16384) (n1 := 1) (j 0) 0)).toInt.toNat 99999, by omega⟩ (j 1)) := by
  unfold Host.gather
  congr 1
  funext a
  refine Fin.ext ?_
  match a with
  | ⟨0, _⟩ =>
    show gather_S100000x128_S16384x1_S16384x128_1_0_n_n_0_1_1128.start j col 0
        + gather_S100000x128_S16384x1_S16384x128_1_0_n_n_0_1_1128.batchCoord j 0
        + gather_S100000x128_S16384x1_S16384x128_1_0_n_n_0_1_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16384x1_S16384x128_1_0_n_n_0_1_1128.startIndexMap from List.mem_singleton.mpr rfl)]
    have hsi : gather_S100000x128_S16384x1_S16384x128_1_0_n_n_0_1_1128.siIdx j
        ⟨List.idxOf (0 : Fin 2) gather_S100000x128_S16384x1_S16384x128_1_0_n_n_0_1_1128.startIndexMap,
          List.idxOf_lt_length_iff.2 (List.mem_singleton.mpr rfl)⟩ = ix2 (n0 := 16384) (n1 := 1) (j 0) 0 := by
      funext b; refine Fin.ext ?_
      match b with
      | ⟨0, _⟩ => rfl
      | ⟨1, _⟩ => rfl
    rw [hsi]
    rfl
  | ⟨1, _⟩ =>
    show gather_S100000x128_S16384x1_S16384x128_1_0_n_n_0_1_1128.start j col 1
        + gather_S100000x128_S16384x1_S16384x128_1_0_n_n_0_1_1128.batchCoord j 1
        + gather_S100000x128_S16384x1_S16384x128_1_0_n_n_0_1_1128.offCoord j 1 = (j 1).val
    rw [GatherDims.batchCoord_eq_zero _ _ _ List.not_mem_nil]
    unfold GatherDims.start
    rw [dif_neg (show (1 : Fin 2) ∉ gather_S100000x128_S16384x1_S16384x128_1_0_n_n_0_1_1128.startIndexMap from by decide)]
    unfold GatherDims.offCoord
    rw [dif_pos (show (1 : Fin 2) ∈ gather_S100000x128_S16384x1_S16384x128_1_0_n_n_0_1_1128.sKept from by decide)]
    simp only [Nat.zero_add]
    rfl

/-- Row `r` of the reference's result is row `100000 + idx[r]` of the table. -/
theorem refOut_apply (x : (⟨S200001x128, .f32⟩ : BufTy).Contents (Elt F)) (i : S16384x128.Idx) :
    refOut x idx i
      = x (ix2 (n0 := 200001) (n1 := 128) (⟨min (100000 + (idx (ix1 (n := 16384) (i 0))).toNat) 200000, by omega⟩ : Fin 200001) (i 1)) := by
  unfold refOut
  show Scalar.select (okIdx idx _) (Host.gather _ _ (colIdx idx) i) _ = _
  rw [okIdx_apply idx hidx, gather_rows_apply]
  show extractStridedSlice S100000x128 ![100000, 0] x slices_S200001x128_S100000x128_100000_0 _ = _
  unfold extractStridedSlice
  have ht := hidx (ix1 (n := 16384) (i 0))
  have hc : colIdx idx (ix2 (n0 := 16384) (n1 := 1) (i 0) 0) = idx (ix1 (n := 16384) (i 0)) := colIdx_apply idx hidx _
  congr 1
  funext a
  refine Fin.ext ?_
  match a with
  | ⟨0, _⟩ =>
    show 100000 + min (colIdx idx (ix2 (n0 := 16384) (n1 := 1) (i 0) 0)).toInt.toNat 99999 = min (100000 + (idx (ix1 (n := 16384) (i 0))).toNat) 200000
    rw [hc, toInt_toNat_of_lt ht]; omega
  | ⟨1, _⟩ =>
    show 0 + (i 1).val = (i 1).val
    omega

end Cert.ReferenceIdeal.RefRun

end
-- ==== Proof.Bridge.lean ====
/-
  From the precondition to the index range. The precondition is the conjunction of "every table entry is finite" and
  "every index is at least 0 and at most 99999, as a signed word", each a reduce by `and` to one bit. Where it is one,
  every index passed both comparisons, so it is below 100000 as an unsigned word.
-/
import proofs.«219932_g11020886081826_week1_w3_745_20_alg».proof.Defs
import proofs.«219932_g11020886081826_week1_w3_745_20_alg».proof.Proof.Gen.Pre_input_domain
import Idealize.ShloMosaic.Lib.ReduceAll
import Idealize.ShloMosaic.Lib.ValueIdx

noncomputable section

namespace Cert.Proof.Bridge

open Idealize.ShloMosaic

theorem word_in_range (v : BitVec 32) (e : IntOp.andi (IntOp.cmpi .sge v 0#32) (IntOp.cmpi .sle v 99999#32) = 1#1) : v.toNat < 100000 := by
  obtain ⟨h1, h2⟩ := IntOp.andi_eq_one.1 e
  have ofBool_eq_one (p : Bool) : (BitVec.ofBool p = 1#1) ↔ p = true := by cases p <;> decide
  simp only [IntOp.cmpi, ofBool_eq_one, BitVec.sle_eq_decide, decide_eq_true_eq, BitVec.toInt_eq_toNat_cond, BitVec.toNat_ofNat,
    Nat.reducePow, Nat.reduceMod] at h1 h2
  omega

variable {F : FTy → Type} [FloatOps F]

theorem idx_of_pre [Cert.Pre_input_domain.Facts] (x : FVec F Cert.Pre_input_domain.S200001x128 .f32) (idx : IVec Cert.Pre_input_domain.S16384 32)
    (h : Cert.Pre_input_domain.fn (F := F) x idx = fun _ => 1#1) : ∀ j, (idx j).toNat < 100000 := by
  intro j
  have e := congrFun h ValueIdx.ix0
  dsimp only [Cert.Pre_input_domain.fn] at e
  change IntOp.andi _ _ = 1#1 at e
  obtain ⟨-, e2⟩ := IntOp.andi_eq_one.1 e
  haveI : Subsingleton Cert.Pre_input_domain.S_.Idx := ⟨fun a b => funext fun d => d.elim0⟩
  have e3 := Host.reduce_andi_all _ _ _ _ _ e2 j
  exact word_in_range _ e3

end Cert.Proof.Bridge

end
-- ==== Proof.lean ====
/-
  An embedding lookup on the SparseCore against jnp.take of a slice: the five claims.

  The kernel: thirty-two vector subcores each fetch 512 indices, gather the table rows `100000 + idx` into their own
  scratch and copy them to their 512 rows of the result. The reference: slice rows `100000 … 199999` of the table and
  take rows of the slice at the indices. Under the precondition every index is in `0 … 99999`; then both results have,
  at row `r`, row `100000 + idx[r]` of the table: one function of the arguments (`KI.Gout`), so the two results are
  equal element by element, with no arithmetic on the entries at all.

  The kernel's run (every weakly fair execution of the device's thirty-five threads ends, nothing faulting, the
  arguments unchanged, the result the gathered rows) holds of the program as printed and of its idealization alike:
  the argument moves rows and never looks at an entry's value. Each frame is that run with the result dropped; the
  reference's frame is its run with the result dropped. The idealization rewrote nothing, so `preserves` is trivial.
-/
import proofs.«219932_g11020886081826_week1_w3_745_20_alg».proof.Defs
import proofs.«219932_g11020886081826_week1_w3_745_20_alg».proof.Proof.Gen.Kernel
import proofs.«219932_g11020886081826_week1_w3_745_20_alg».proof.Proof.Gen.Kernel.Skeleton
import proofs.«219932_g11020886081826_week1_w3_745_20_alg».proof.Proof.Gen.KernelIdeal
import proofs.«219932_g11020886081826_week1_w3_745_20_alg».proof.Proof.Gen.KernelIdeal.Skeleton
import proofs.«219932_g11020886081826_week1_w3_745_20_alg».proof.Proof.Gen.ReferenceIdeal
import proofs.«219932_g11020886081826_week1_w3_745_20_alg».proof.Proof.Gen.Pre_input_domain
import proofs.«219932_g11020886081826_week1_w3_745_20_alg».proof.Proof.KBL
import proofs.«219932_g11020886081826_week1_w3_745_20_alg».proof.Proof.KIL
import proofs.«219932_g11020886081826_week1_w3_745_20_alg».proof.Proof.RefVal
import proofs.«219932_g11020886081826_week1_w3_745_20_alg».proof.Proof.Bridge
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_input_domain.Gen.facts

/-- Under the precondition every index is below 100000: what the two runs ask of the launch memory. -/
theorem okB (m : (ℓ : Loc Cert.Kernel.nD Cert.Kernel.τ Cert.Kernel.sig) → Buf (Elt Bits) ℓ) (h : Cert.Pre_Kernel m) : KB.PreOK m :=
  fun d j => Bridge.idx_of_pre _ _ (h d) j
theorem okI (m : (ℓ : Loc Cert.KernelIdeal.nD Cert.KernelIdeal.τ Cert.KernelIdeal.sig) → Buf (Elt Ideal) ℓ) (h : Cert.Pre_KernelIdeal m) : KI.PreOK m :=
  fun d j => Bridge.idx_of_pre _ _ (h d) j

theorem frame_k : Cert.frame_Kernel := fun m ρ hpre =>
  (θ_run Cert.Kernel.defs _ _).mono (fun _ h c => ⟨(h c).2.1, (h c).1⟩) (KB.run_main (F := Bits) m ρ (okB m hpre))

theorem frame_ki : Cert.frame_KernelIdeal := fun m ρ hpre =>
  (θ_run Cert.KernelIdeal.defs _ _).mono (fun _ h c => ⟨(h c).2.1, (h c).1⟩) (KI.run_main (F := Ideal) m ρ (okI m hpre))

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both results are the table's rows `100000 + idx`: the kernel's by its run, the reference's by its run read at an index. -/
theorem algebraic : Cert.algebraic_KernelIdeal_ReferenceIdeal := by
  intro m ρ m' ρ' hpre hagree
  refine ⟨fun c => KI.Gout m c, ?_, ?_⟩
  · exact (θ_run Cert.KernelIdeal.defs _ _).mono (fun _ h c => ⟨(h c).2.2, (h c).2.1, (h c).1⟩) (KI.run_main (F := Ideal) m ρ (okI m hpre))
  · refine (θ_run Cert.ReferenceIdeal.defs _ _).mono (fun _ h c => ⟨(h c).1.trans ?_, (h c).2.1, (h c).2.2⟩)
      (Cert.ReferenceIdeal.RefRun.run (F := Ideal) m' ρ')
    rw [(hagree c).1, (hagree c).2]
    funext i
    exact (Cert.ReferenceIdeal.RefRun.refOut_apply _ (okI m hpre c) _ i).trans rfl

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
